-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S384x256 : Shape := ⟨2, ![384, 256]⟩
abbrev S256 : Shape := ⟨1, ![256]⟩
abbrev S512x128 : Shape := ⟨2, ![512, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg11 : FVec F S384x256 .f32) (main_arg12 : FVec F S256 .f32) (main_arg13 : FVec F S512x128 .f32) (main_arg14 : FVec F S128 .f32) (main_v33 : IVec S_ 1) : IVec S_ 1 :=
  let main_v34 : FVec F S384x256 .f32 := Host.absf main_arg11
  let main_cst_12 : FVec F S_ .f32 := constant S_ .f32 0x7F800000#32
  let main_v35 : FVec F S384x256 .f32 := broadcastInDim S384x256 ![] bcast_S_S384x256 main_cst_12
  let main_v36 : IVec S384x256 1 := cmpf .olt main_v34 main_v35
  let main_c_13 : IVec S_ 1 := constantI S_ 1 1#1
  let main_v37 : IVec S_ 1 := (fun x v => Host.reduce IntOp.andi x v reducesTo_S384x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x128 .f32 := Host.absf main_arg13
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg8 : FVec F S128 .f32) (main_arg9 : FVec F S384x256 .f32) (main_arg10 : FVec F S256 .f32) (main_arg11 : FVec F S384x256 .f32) (main_arg12 : FVec F S256 .f32) (main_arg13 : FVec F S512x128 .f32) (main_arg14 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x256 .f32 := Host.absf main_arg9
  let main_cst_8 : FVec F S_ .f32 := constant S_ .f32 0x7F800000#32
  let main_v25 : FVec F S384x256 .f32 := broadcastInDim S384x256 ![] bcast_S_S384x256 main_cst_8
  let main_v26 : IVec S384x256 1 := cmpf .olt main_v24 main_v25
  let main_c_9 : IVec S_ 1 := constantI S_ 1 1#1
  let main_v27 : IVec S_ 1 := (fun x v => Host.reduce IntOp.andi x v reducesTo_S384x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S50000x128 .f32) (main_arg1 : IVec S800000 32) (main_arg2 : IVec S800000 32) (main_arg3 : IVec S800000 32) (main_arg4 : IVec S800000 32) (main_arg5 : FVec F S256x128 .f32) (main_arg6 : FVec F S128 .f32) (main_arg7 : FVec F S256x128 .f32) (main_arg8 : FVec F S128 .f32) (main_arg9 : FVec F S384x256 .f32) (main_arg10 : FVec F S256 .f32) (main_arg11 : FVec F S384x256 .f32) (main_arg12 : FVec F S256 .f32) (main_arg13 : FVec F S512x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S384x256 : Shape := ⟨2, ![384, 256]⟩
abbrev S256 : Shape := ⟨1, ![256]⟩
abbrev S512x128 : Shape := ⟨2, ![512, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S1000x128 : Shape := ⟨2, ![1000, 128]⟩
abbrev S128x256 : Shape := ⟨2, ![128, 256]⟩
abbrev S1x256 : Shape := ⟨2, ![1, 256]⟩
abbrev S1000x256 : Shape := ⟨2, ![1000, 256]⟩

abbrev nBuf : Space → Nat
  | .hbm => 197
  | .vmem => 41
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .i32⟩
  | 4 => ⟨S800000, .i32⟩
  | 5 => ⟨S256x128, .f32⟩
  | 6 => ⟨S128, .f32⟩
  | 7 => ⟨S256x128, .f32⟩
  | 8 => ⟨S128, .f32⟩
  | 9 => ⟨S384x256, .f32⟩
  | 10 => ⟨S256, .f32⟩
  | 11 => ⟨S384x256, .f32⟩
  | 12 => ⟨S256, .f32⟩
  | 13 => ⟨S512x128, .f32⟩
  | 14 => ⟨S128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S_, .f32⟩
  | 54 => ⟨S800000, .f32⟩
  | 55 => ⟨S_, .f32⟩
  | 56 => ⟨S50000, .f32⟩
  | 57 => ⟨S800000x1, .i32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S128x128, .f32⟩
  | 66 => ⟨S128x128, .bf16⟩
  | 67 => ⟨S128x128, .f32⟩
  | 68 => ⟨S128x128, .bf16⟩
  | 69 => ⟨S128x128, .f32⟩
  | 70 => ⟨S128x128, .bf16⟩
  | 71 => ⟨S128x128, .f32⟩
  | 72 => ⟨S128x128, .bf16⟩
  | 73 => ⟨S1x128, .f32⟩
  | 74 => ⟨S1x128, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S800000, .f32⟩
  | 92 => ⟨S_, .f32⟩
  | 93 => ⟨S50000, .f32⟩
  | 94 => ⟨S800000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000x1, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S128x256, .f32⟩
  | 50 => ⟨S128x256, .bf16⟩
  | 51 => ⟨S128x256, .f32⟩
  | 52 => ⟨S128x256, .bf16⟩
  | 53 => ⟨S128x256, .f32⟩
  | 54 => ⟨S128x256, .bf16⟩
  | 55 => ⟨S128x256, .f32⟩
  | 56 => ⟨S128x256, .bf16⟩
  | 57 => ⟨S128x256, .f32⟩
  | 58 => ⟨S128x256, .bf16⟩
  | 59 => ⟨S128x256, .f32⟩
  | 60 => ⟨S128x256, .bf16⟩
  | 61 => ⟨S256x128, .f32⟩
  | 62 => ⟨S256x128, .bf16⟩
  | 63 => ⟨S256x128, .f32⟩
  | 64 => ⟨S256x128, .bf16⟩
  | 65 => ⟨S1x256, .f32⟩
  | 66 => ⟨S1x256, .f32⟩
  | 67 => ⟨S1x128, .f32⟩
  | 68 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x256, .bf16⟩
  | .local _ .vmem, ⟨29, _⟩ => ⟨S128x256, .bf16⟩
  | .local _ .vmem, ⟨30, _⟩ => ⟨S128x256, .bf16⟩
  | .local _ .vmem, ⟨31, _⟩ => ⟨S1x256, .f32⟩
  | .local _ .vmem, ⟨32, _⟩ => ⟨S128x256, .bf16⟩
  | .local _ .vmem, ⟨33, _⟩ => ⟨S128x256, .bf16⟩
  | .local _ .vmem, ⟨34, _⟩ => ⟨S128x256, .bf16⟩
  | .local _ .vmem, ⟨35, _⟩ => ⟨S1x256, .f32⟩
  | .local _ .vmem, ⟨36, _⟩ => ⟨S256x128, .bf16⟩
  | .local _ .vmem, ⟨37, _⟩ => ⟨S256x128, .bf16⟩
  | .local _ .vmem, ⟨38, _⟩ => ⟨S1x128, .f32⟩
  | .local _ .vmem, ⟨39, _⟩ => ⟨S1000x128, .f32⟩
  | .local _ .vmem, ⟨40, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48_0 : Ref sig .tc := ⟨.hbm, 75, rfl⟩
abbrev main_v48_1 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_19 : Ref sig .tc := ⟨.hbm, 115, rfl⟩
abbrev main_v78 : Ref sig .tc := ⟨.hbm, 116, rfl⟩
abbrev main_cst_20 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_21 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_22 : Ref sig .tc := ⟨.hbm, 127, rfl⟩
abbrev main_v87 : Ref sig .tc := ⟨.hbm, 128, rfl⟩
abbrev main_v88 : Ref sig .tc := ⟨.hbm, 129, rfl⟩
abbrev main_c_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_25 : Ref sig .tc := ⟨.hbm, 140, rfl⟩
abbrev main_v97 : Ref sig .tc := ⟨.hbm, 141, rfl⟩
abbrev main_cst_26 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_27 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_28 : Ref sig .tc := ⟨.hbm, 152, rfl⟩
abbrev main_v106 : Ref sig .tc := ⟨.hbm, 153, rfl⟩
abbrev main_v107 : Ref sig .tc := ⟨.hbm, 154, rfl⟩
abbrev main_c_29 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_30 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_31 : Ref sig .tc := ⟨.hbm, 165, rfl⟩
abbrev main_v116 : Ref sig .tc := ⟨.hbm, 166, rfl⟩
abbrev main_cst_32 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_33 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg15_0 : Ref sig .tc := ⟨.vmem, 37, rfl⟩
abbrev cc1_stg16_0 : Ref sig .tc := ⟨.vmem, 38, rfl⟩
abbrev cc1_stg17_0 : Ref sig .tc := ⟨.vmem, 39, rfl⟩
abbrev cc1_stg17_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem15_0 : DmaSem sig := 37
abbrev cc1_sem16_0 : DmaSem sig := 38
abbrev cc1_sem17_0 : DmaSem sig := 39
abbrev cc1_sem17_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x256 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x128 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x128 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1000x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S384x256_S128x256_0_0 : S384x256.Slices ![0, 0] S128x256
  slices_S384x256_S128x256_128_0 : S384x256.Slices ![128, 0] S128x256
  slices_S384x256_S128x256_256_0 : S384x256.Slices ![256, 0] S128x256
  slices_S512x128_S256x128_0_0 : S512x128.Slices ![0, 0] S256x128
  slices_S512x128_S256x128_256_0 : S512x128.Slices ![256, 0] S256x128
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S50000x128.size a
  hwx0_9 : ∀ i : grid0.Coords, EltTy.bits .f32 = 32 ∨ (Rect.block (s := S50000x128) S1000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x128.size a ≤ S50000x128.size a
  hwx0_10 : ∀ i : grid0.Coords, EltTy.bits .f32 = 32 ∨ (Rect.block (s := S50000x128) S1000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .f32 = 32 ∨ (Rect.block (s := S50000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .bf16 = 32 ∨ (Rect.block (s := S128x256) S128x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .bf16 = 32 ∨ (Rect.block (s := S128x256) S128x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .bf16 = 32 ∨ (Rect.block (s := S128x256) S128x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x256.size a ≤ S128x256.size a
  hwx1_10 : ∀ i : grid1.Coords, EltTy.bits .bf16 = 32 ∨ (Rect.block (s := S128x256) S128x256.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x256.size a ≤ S128x256.size a
  hwx1_11 : ∀ i : grid1.Coords, EltTy.bits .bf16 = 32 ∨ (Rect.block (s := S128x256) S128x256.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x256.size a ≤ S128x256.size a
  hwx1_12 : ∀ i : grid1.Coords, EltTy.bits .bf16 = 32 ∨ (Rect.block (s := S128x256) S128x256.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x256.size a
  hwx1_13 : ∀ i : grid1.Coords, EltTy.bits .f32 = 32 ∨ (Rect.block (s := S1x256) S1x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x128.size a ≤ S256x128.size a
  hwx1_14 : ∀ i : grid1.Coords, EltTy.bits .bf16 = 32 ∨ (Rect.block (s := S256x128) S256x128.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S256x128.size a ≤ S256x128.size a
  hwx1_15 : ∀ i : grid1.Coords, EltTy.bits .bf16 = 32 ∨ (Rect.block (s := S256x128) S256x128.size (cc1_transform_15 i) (hinb1_15 i)).WholeWords (EltTy.packing .bf16)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1000x128.size a ≤ S50000x128.size a
  hwx1_17 : ∀ i : grid1.Coords, EltTy.bits .f32 = 32 ∨ (Rect.block (s := S50000x128) S1000x128.size (cc1_transform_17 i) (hinb1_17 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v18) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48_0) S1000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v48_1) S1000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v67) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v105) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v124) S1000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v126) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v128) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v130) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v141) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v132) S128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v134) S128x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v136) S128x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v142) S1x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v138) S256x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v140) S256x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v143) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v144) S1000x128.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S384x256 : Shape := ⟨2, ![384, 256]⟩
abbrev S256 : Shape := ⟨1, ![256]⟩
abbrev S512x128 : Shape := ⟨2, ![512, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩
abbrev S50000x384 : Shape := ⟨2, ![50000, 384]⟩
abbrev S1x256 : Shape := ⟨2, ![1, 256]⟩
abbrev S50000x512 : Shape := ⟨2, ![50000, 512]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .i32⟩
  | 4 => ⟨S800000, .i32⟩
  | 5 => ⟨S256x128, .f32⟩
  | 6 => ⟨S128, .f32⟩
  | 7 => ⟨S256x128, .f32⟩
  | 8 => ⟨S128, .f32⟩
  | 9 => ⟨S384x256, .f32⟩
  | 10 => ⟨S256, .f32⟩
  | 11 => ⟨S384x256, .f32⟩
  | 12 => ⟨S256, .f32⟩
  | 13 => ⟨S512x128, .f32⟩
  | 14 => ⟨S128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S_, .f32⟩
  | 54 => ⟨S800000, .f32⟩
  | 55 => ⟨S_, .f32⟩
  | 56 => ⟨S50000, .f32⟩
  | 57 => ⟨S800000x1, .i32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S50000x256, .f32⟩
  | 66 => ⟨S50000x128, .f32⟩
  | 67 => ⟨S1x128, .f32⟩
  | 68 => ⟨S50000x128, .f32⟩
  | 69 => ⟨S50000x128, .f32⟩
  | 70 => ⟨S50000x128, .f32⟩
  | 71 => ⟨S50000x256, .f32⟩
  | 72 => ⟨S50000x128, .f32⟩
  | 73 => ⟨S1x128, .f32⟩
  | 74 => ⟨S50000x128, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S800000, .f32⟩
  | 92 => ⟨S_, .f32⟩
  | 93 => ⟨S50000, .f32⟩
  | 94 => ⟨S800000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S50000x256, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S50000x256, .f32⟩
  | 51 => ⟨S50000x384, .f32⟩
  | 52 => ⟨S50000x256, .f32⟩
  | 53 => ⟨S1x256, .f32⟩
  | 54 => ⟨S50000x256, .f32⟩
  | 55 => ⟨S50000x256, .f32⟩
  | 56 => ⟨S50000x256, .f32⟩
  | 57 => ⟨S50000x384, .f32⟩
  | 58 => ⟨S50000x256, .f32⟩
  | 59 => ⟨S1x256, .f32⟩
  | 60 => ⟨S50000x256, .f32⟩
  | 61 => ⟨S50000x256, .f32⟩
  | 62 => ⟨S50000x256, .f32⟩
  | 63 => ⟨S50000x512, .f32⟩
  | 64 => ⟨S50000x128, .f32⟩
  | 65 => ⟨S1x128, .f32⟩
  | 66 => ⟨S50000x128, .f32⟩
  | 67 => ⟨S50000x128, .f32⟩
  | 68 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_cst_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_21 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_22 : Ref sig .tc := ⟨.hbm, 128, rfl⟩
abbrev main_v89 : Ref sig .tc := ⟨.hbm, 129, rfl⟩
abbrev main_v90 : Ref sig .tc := ⟨.hbm, 130, rfl⟩
abbrev main_c_23 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_24 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_25 : Ref sig .tc := ⟨.hbm, 141, rfl⟩
abbrev main_v99 : Ref sig .tc := ⟨.hbm, 142, rfl⟩
abbrev main_cst_26 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_27 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_28 : Ref sig .tc := ⟨.hbm, 153, rfl⟩
abbrev main_v108 : Ref sig .tc := ⟨.hbm, 154, rfl⟩
abbrev main_v109 : Ref sig .tc := ⟨.hbm, 155, rfl⟩
abbrev main_c_29 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_30 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_31 : Ref sig .tc := ⟨.hbm, 166, rfl⟩
abbrev main_v118 : Ref sig .tc := ⟨.hbm, 167, rfl⟩
abbrev main_cst_32 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_33 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x256_S50000x128_S50000x384_d1 : Shape.Concatenates [S50000x256, S50000x128] S50000x384 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S50000x256_S50000x256_S50000x512_d1 : Shape.Concatenates [S50000x256, S50000x256] S50000x512 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x384_S384x256_S50000x256_1_0_0_1_n_n_wf : DotDims.WF S50000x384 S384x256 S50000x256 [1] [0] [0] [1] [] []
  dot_S50000x512_S512x128_S50000x128_1_0_0_1_n_n_wf : DotDims.WF S50000x512 S512x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KRun.lean ====
/-
  The idealized kernel's run with its result named.

  @main is four segments: the host operations before the first pallas_call, that call's grid, the host operations
  between the two calls, and the second call's grid. The buffer contents at each boundary are a fold from the launch
  memory: after a host stretch, its operations applied in order; after a grid, the call's arrays at what the
  write-backs of all its points leave and every other buffer as the grid found it. Every weakly fair execution
  terminates without a fault in a state whose unscoped buffers hold the last fold. Read at the result buffer that is
  the kernel's value; read at an argument buffer it is the argument as launched, since no segment writes one.
-/
import proofs.«111255_j13589276524974_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents (`Gen.W4`) and every argument array as launched. -/
theorem run : θ_run defs (onTc (τ := τ) (main (F := F))) ⟨m, fun _ => 0, ρ⟩ (fun r => ∀ c : Dev nD,
      r.2.mem ((c.tc : Thread nD τ).loc main_v144) = W4 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v144 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Named

end
-- ==== Proof.KReads.lean ====
/-
  How the two pallas_calls' windows sit on their arrays.

  Both calls run a grid of 50 points over 50000 rows. A row window (an activation, or an output) has blocks of
  1000 rows by all 128 columns, and point `t` takes block `t`: entry `(r, k)` of the block is entry
  `(1000 t + r, k)` of the array. A weight or bias window's block is its whole array at every point. The output
  blocks are disjoint and tile their arrays: row `i` belongs to point `i / 1000`.
-/
import proofs.«111255_j13589276524974_1_alg».proof.Proof.Gen.KernelIdeal.Frame
import Idealize.ShloMosaic.Lib.Pipeline.Value
import Idealize.ShloMosaic.Lib.ValueIdx

set_option maxRecDepth 16384

noncomputable section

namespace Cert.KernelIdeal.Reads

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The printed index maps of call 0, decided over its 50 grid points: a row window's block index is the point's number on
    the row axis and 0 on the column axis; a weight or bias window stays at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The printed index maps of call 1, decided over its 50 grid points: a row window's block index is the point's number on
    the row axis and 0 on the column axis; a weight or bias window stays at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_15.index t (0 : Fin 2) = 0 ∧ win1_15.index t (1 : Fin 2) = 0)
    ∧ (win1_16.index t (0 : Fin 2) = 0 ∧ win1_16.index t (1 : Fin 2) = 0)
    ∧ (win1_17.index t (0 : Fin 2) = t.val ∧ win1_17.index t (1 : Fin 2) = 0) :=
  (by decide +kernel : ∀ t : Fin grid1.N, _)
/-- Row `r` of point `t`'s block is row `1000 t + r` of the array (first call). -/
def row0 (t : Fin cfg0.N) (r : Fin 1000) : Fin 50000 :=
  ⟨1000 * t.val + r.val, by have hN : grid0.N = 50 := N_0; have ht : t.val < grid0.N := t.isLt; have := r.isLt; omega⟩
/-- Row `r` of point `t`'s block is row `1000 t + r` of the array (second call). -/
def row1 (t : Fin cfg1.N) (r : Fin 1000) : Fin 50000 :=
  ⟨1000 * t.val + r.val, by have hN : grid1.N = 50 := N_1; have ht : t.val < grid1.N := t.isLt; have := r.isLt; omega⟩

variable (V : (c : Dev nD) → (b : Ref sig .tc) → Buf (Elt Ideal) ((c : Thread nD τ).loc b))

/-! ## The first call's input blocks, read off the arrays as the call finds them -/

theorem blk0_0 (c : Dev nD) (t : Fin cfg0.N) (r : Fin 1000) (k : Fin 128) :
    iblk0 V c 0 t (ix2 r k) = V c main_v18 (ix2 (row0 t r) k) := by
  show V c main_v18 (((cfg0.win 0).blk t).view.emb (ix2 r k)) = V c main_v18 (ix2 (row0 t r) k)
  refine congrArg (V c main_v18) (funext fun a => Fin.ext ?_)
  obtain ⟨h0, h1⟩ := (idx0 t).1
  match a with
  | ⟨0, _⟩ => show win0_0.index t (0 : Fin 2) * 1000 + 1 * r.val = 1000 * t.val + r.val; omega
  | ⟨1, _⟩ => show win0_0.index t (1 : Fin 2) * 128 + 1 * k.val = k.val; omega

theorem blk0_1 (c : Dev nD) (t : Fin cfg0.N) (r : Fin 1000) (k : Fin 128) :
    iblk0 V c 1 t (ix2 r k) = V c main_arg0 (ix2 (row0 t r) k) := by
  show V c main_arg0 (((cfg0.win 1).blk t).view.emb (ix2 r k)) = V c main_arg0 (ix2 (row0 t r) k)
  refine congrArg (V c main_arg0) (funext fun a => Fin.ext ?_)
  obtain ⟨h0, h1⟩ := (idx0 t).2.1
  match a with
  | ⟨0, _⟩ => show win0_1.index t (0 : Fin 2) * 1000 + 1 * r.val = 1000 * t.val + r.val; omega
  | ⟨1, _⟩ => show win0_1.index t (1 : Fin 2) * 128 + 1 * k.val = k.val; omega

theorem blk0_2 (c : Dev nD) (t : Fin cfg0.N) (r : Fin 1000) (k : Fin 128) :
    iblk0 V c 2 t (ix2 r k) = V c main_v37 (ix2 (row0 t r) k) := by
  show V c main_v37 (((cfg0.win 2).blk t).view.emb (ix2 r k)) = V c main_v37 (ix2 (row0 t r) k)
  refine congrArg (V c main_v37) (funext fun a => Fin.ext ?_)
  obtain ⟨h0, h1⟩ := (idx0 t).2.2.1
  match a with
  | ⟨0, _⟩ => show win0_2.index t (0 : Fin 2) * 1000 + 1 * r.val = 1000 * t.val + r.val; omega
  | ⟨1, _⟩ => show win0_2.index t (1 : Fin 2) * 128 + 1 * k.val = k.val; omega

theorem blk0_3 (c : Dev nD) (t : Fin cfg0.N) (p : Fin 128) (q : Fin 128) :
    iblk0 V c 3 t (ix2 p q) = V c main_v39 (ix2 p q) := by
  show V c main_v39 (((cfg0.win 3).blk t).view.emb (ix2 p q)) = V c main_v39 (ix2 p q)
  refine congrArg (V c main_v39) (funext fun a => Fin.ext ?_)
  obtain ⟨h0, h1⟩ := (idx0 t).2.2.2.1
  match a with
  | ⟨0, _⟩ => show win0_3.index t (0 : Fin 2) * 128 + 1 * p.val = p.val; omega
  | ⟨1, _⟩ => show win0_3.index t (1 : Fin 2) * 128 + 1 * q.val = q.val; omega

theorem blk0_4 (c : Dev nD) (t : Fin cfg0.N) (p : Fin 128) (q : Fin 128) :
    iblk0 V c 4 t (ix2 p q) = V c main_v41 (ix2 p q) := by
  show V c main_v41 (((cfg0.win 4).blk t).view.emb (ix2 p q)) = V c main_v41 (ix2 p q)
  refine congrArg (V c main_v41) (funext fun a => Fin.ext ?_)
  obtain ⟨h0, h1⟩ := (idx0 t).2.2.2.2.1
  match a with
  | ⟨0, _⟩ => show win0_4.index t (0 : Fin 2) * 128 + 1 * p.val = p.val; omega
  | ⟨1, _⟩ => show win0_4.index t (1 : Fin 2) * 128 + 1 * q.val = q.val; omega

theorem blk0_5 (c : Dev nD) (t : Fin cfg0.N) (p : Fin 1) (q : Fin 128) :
    iblk0 V c 5 t (ix2 p q) = V c main_v46 (ix2 p q) := by
  show V c main_v46 (((cfg0.win 5).blk t).view.emb (ix2 p q)) = V c main_v46 (ix2 p q)
  refine congrArg (V c main_v46) (funext fun a => Fin.ext ?_)
  obtain ⟨h0, h1⟩ := (idx0 t).2.2.2.2.2.1
  match a with
  | ⟨0, _⟩ => show win0_5.index t (0 : Fin 2) * 1 + 1 * p.val = p.val; omega
  | ⟨1, _⟩ => show win0_5.index t (1 : Fin 2) * 128 + 1 * q.val = q.val; omega

theorem blk0_6 (c : Dev nD) (t : Fin cfg0.N) (p : Fin 128) (q : Fin 128) :
    iblk0 V c 6 t (ix2 p q) = V c main_v43 (ix2 p q) := by
  show V c main_v43 (((cfg0.win 6).blk t).view.emb (ix2 p q)) = V c main_v43 (ix2 p q)
  refine congrArg (V c main_v43) (funext fun a => Fin.ext ?_)
  obtain ⟨h0, h1⟩ := (idx0 t).2.2.2.2.2.2.1
  match a with
  | ⟨0, _⟩ => show win0_6.index t (0 : Fin 2) * 128 + 1 * p.val = p.val; omega
  | ⟨1, _⟩ => show win0_6.index t (1 : Fin 2) * 128 + 1 * q.val = q.val; omega

theorem blk0_7 (c : Dev nD) (t : Fin cfg0.N) (p : Fin 128) (q : Fin 128) :
    iblk0 V c 7 t (ix2 p q) = V c main_v45 (ix2 p q) := by
  show V c main_v45 (((cfg0.win 7).blk t).view.emb (ix2 p q)) = V c main_v45 (ix2 p q)
  refine congrArg (V c main_v45) (funext fun a => Fin.ext ?_)
  obtain ⟨h0, h1⟩ := (idx0 t).2.2.2.2.2.2.2.1
  match a with
  | ⟨0, _⟩ => show win0_7.index t (0 : Fin 2) * 128 + 1 * p.val = p.val; omega
  | ⟨1, _⟩ => show win0_7.index t (1 : Fin 2) * 128 + 1 * q.val = q.val; omega

theorem blk0_8 (c : Dev nD) (t : Fin cfg0.N) (p : Fin 1) (q : Fin 128) :
    iblk0 V c 8 t (ix2 p q) = V c main_v47 (ix2 p q) := by
  show V c main_v47 (((cfg0.win 8).blk t).view.emb (ix2 p q)) = V c main_v47 (ix2 p q)
  refine congrArg (V c main_v47) (funext fun a => Fin.ext ?_)
  obtain ⟨h0, h1⟩ := (idx0 t).2.2.2.2.2.2.2.2.1
  match a with
  | ⟨0, _⟩ => show win0_8.index t (0 : Fin 2) * 1 + 1 * p.val = p.val; omega
  | ⟨1, _⟩ => show win0_8.index t (1 : Fin 2) * 128 + 1 * q.val = q.val; omega

/-! ## The second call's input blocks -/

theorem blk1_0 (c : Dev nD) (t : Fin cfg1.N) (r : Fin 1000) (k : Fin 128) :
    iblk1 V c 0 t (ix2 r k) = V c main_v67 (ix2 (row1 t r) k) := by
  show V c main_v67 (((cfg1.win 0).blk t).view.emb (ix2 r k)) = V c main_v67 (ix2 (row1 t r) k)
  refine congrArg (V c main_v67) (funext fun a => Fin.ext ?_)
  obtain ⟨h0, h1⟩ := (idx1 t).1
  match a with
  | ⟨0, _⟩ => show win1_0.index t (0 : Fin 2) * 1000 + 1 * r.val = 1000 * t.val + r.val; omega
  | ⟨1, _⟩ => show win1_0.index t (1 : Fin 2) * 128 + 1 * k.val = k.val; omega

theorem blk1_1 (c : Dev nD) (t : Fin cfg1.N) (r : Fin 1000) (k : Fin 128) :
    iblk1 V c 1 t (ix2 r k) = V c main_v86 (ix2 (row1 t r) k) := by
  show V c main_v86 (((cfg1.win 1).blk t).view.emb (ix2 r k)) = V c main_v86 (ix2 (row1 t r) k)
  refine congrArg (V c main_v86) (funext fun a => Fin.ext ?_)
  obtain ⟨h0, h1⟩ := (idx1 t).2.1
  match a with
  | ⟨0, _⟩ => show win1_1.index t (0 : Fin 2) * 1000 + 1 * r.val = 1000 * t.val + r.val; omega
  | ⟨1, _⟩ => show win1_1.index t (1 : Fin 2) * 128 + 1 * k.val = k.val; omega

theorem blk1_2 (c : Dev nD) (t : Fin cfg1.N) (r : Fin 1000) (k : Fin 128) :
    iblk1 V c 2 t (ix2 r k) = V c main_v48_0 (ix2 (row1 t r) k) := by
  show V c main_v48_0 (((cfg1.win 2).blk t).view.emb (ix2 r k)) = V c main_v48_0 (ix2 (row1 t r) k)
  refine congrArg (V c main_v48_0) (funext fun a => Fin.ext ?_)
  obtain ⟨h0, h1⟩ := (idx1 t).2.2.1
  match a with
  | ⟨0, _⟩ => show win1_2.index t (0 : Fin 2) * 1000 + 1 * r.val = 1000 * t.val + r.val; omega
  | ⟨1, _⟩ => show win1_2.index t (1 : Fin 2) * 128 + 1 * k.val = k.val; omega

theorem blk1_3 (c : Dev nD) (t : Fin cfg1.N) (r : Fin 1000) (k : Fin 128) :
    iblk1 V c 3 t (ix2 r k) = V c main_v105 (ix2 (row1 t r) k) := by
  show V c main_v105 (((cfg1.win 3).blk t).view.emb (ix2 r k)) = V c main_v105 (ix2 (row1 t r) k)
  refine congrArg (V c main_v105) (funext fun a => Fin.ext ?_)
  obtain ⟨h0, h1⟩ := (idx1 t).2.2.2.1
  match a with
  | ⟨0, _⟩ => show win1_3.index t (0 : Fin 2) * 1000 + 1 * r.val = 1000 * t.val + r.val; omega
  | ⟨1, _⟩ => show win1_3.index t (1 : Fin 2) * 128 + 1 * k.val = k.val; omega

theorem blk1_4 (c : Dev nD) (t : Fin cfg1.N) (r : Fin 1000) (k : Fin 128) :
    iblk1 V c 4 t (ix2 r k) = V c main_v124 (ix2 (row1 t r) k) := by
  show V c main_v124 (((cfg1.win 4).blk t).view.emb (ix2 r k)) = V c main_v124 (ix2 (row1 t r) k)
  refine congrArg (V c main_v124) (funext fun a => Fin.ext ?_)
  obtain ⟨h0, h1⟩ := (idx1 t).2.2.2.2.1
  match a with
  | ⟨0, _⟩ => show win1_4.index t (0 : Fin 2) * 1000 + 1 * r.val = 1000 * t.val + r.val; omega
  | ⟨1, _⟩ => show win1_4.index t (1 : Fin 2) * 128 + 1 * k.val = k.val; omega

theorem blk1_5 (c : Dev nD) (t : Fin cfg1.N) (r : Fin 1000) (k : Fin 128) :
    iblk1 V c 5 t (ix2 r k) = V c main_v48_1 (ix2 (row1 t r) k) := by
  show V c main_v48_1 (((cfg1.win 5).blk t).view.emb (ix2 r k)) = V c main_v48_1 (ix2 (row1 t r) k)
  refine congrArg (V c main_v48_1) (funext fun a => Fin.ext ?_)
  obtain ⟨h0, h1⟩ := (idx1 t).2.2.2.2.2.1
  match a with
  | ⟨0, _⟩ => show win1_5.index t (0 : Fin 2) * 1000 + 1 * r.val = 1000 * t.val + r.val; omega
  | ⟨1, _⟩ => show win1_5.index t (1 : Fin 2) * 128 + 1 * k.val = k.val; omega

theorem blk1_6 (c : Dev nD) (t : Fin cfg1.N) (p : Fin 128) (q : Fin 256) :
    iblk1 V c 6 t (ix2 p q) = V c main_v126 (ix2 p q) := by
  show V c main_v126 (((cfg1.win 6).blk t).view.emb (ix2 p q)) = V c main_v126 (ix2 p q)
  refine congrArg (V c main_v126) (funext fun a => Fin.ext ?_)
  obtain ⟨h0, h1⟩ := (idx1 t).2.2.2.2.2.2.1
  match a with
  | ⟨0, _⟩ => show win1_6.index t (0 : Fin 2) * 128 + 1 * p.val = p.val; omega
  | ⟨1, _⟩ => show win1_6.index t (1 : Fin 2) * 256 + 1 * q.val = q.val; omega

theorem blk1_7 (c : Dev nD) (t : Fin cfg1.N) (p : Fin 128) (q : Fin 256) :
    iblk1 V c 7 t (ix2 p q) = V c main_v128 (ix2 p q) := by
  show V c main_v128 (((cfg1.win 7).blk t).view.emb (ix2 p q)) = V c main_v128 (ix2 p q)
  refine congrArg (V c main_v128) (funext fun a => Fin.ext ?_)
  obtain ⟨h0, h1⟩ := (idx1 t).2.2.2.2.2.2.2.1
  match a with
  | ⟨0, _⟩ => show win1_7.index t (0 : Fin 2) * 128 + 1 * p.val = p.val; omega
  | ⟨1, _⟩ => show win1_7.index t (1 : Fin 2) * 256 + 1 * q.val = q.val; omega

theorem blk1_8 (c : Dev nD) (t : Fin cfg1.N) (p : Fin 128) (q : Fin 256) :
    iblk1 V c 8 t (ix2 p q) = V c main_v130 (ix2 p q) := by
  show V c main_v130 (((cfg1.win 8).blk t).view.emb (ix2 p q)) = V c main_v130 (ix2 p q)
  refine congrArg (V c main_v130) (funext fun a => Fin.ext ?_)
  obtain ⟨h0, h1⟩ := (idx1 t).2.2.2.2.2.2.2.2.1
  match a with
  | ⟨0, _⟩ => show win1_8.index t (0 : Fin 2) * 128 + 1 * p.val = p.val; omega
  | ⟨1, _⟩ => show win1_8.index t (1 : Fin 2) * 256 + 1 * q.val = q.val; omega

theorem blk1_9 (c : Dev nD) (t : Fin cfg1.N) (p : Fin 1) (q : Fin 256) :
    iblk1 V c 9 t (ix2 p q) = V c main_v141 (ix2 p q) := by
  show V c main_v141 (((cfg1.win 9).blk t).view.emb (ix2 p q)) = V c main_v141 (ix2 p q)
  refine congrArg (V c main_v141) (funext fun a => Fin.ext ?_)
  obtain ⟨h0, h1⟩ := (idx1 t).2.2.2.2.2.2.2.2.2.1
  match a with
  | ⟨0, _⟩ => show win1_9.index t (0 : Fin 2) * 1 + 1 * p.val = p.val; omega
  | ⟨1, _⟩ => show win1_9.index t (1 : Fin 2) * 256 + 1 * q.val = q.val; omega

theorem blk1_10 (c : Dev nD) (t : Fin cfg1.N) (p : Fin 128) (q : Fin 256) :
    iblk1 V c 10 t (ix2 p q) = V c main_v132 (ix2 p q) := by
  show V c main_v132 (((cfg1.win 10).blk t).view.emb (ix2 p q)) = V c main_v132 (ix2 p q)
  refine congrArg (V c main_v132) (funext fun a => Fin.ext ?_)
  obtain ⟨h0, h1⟩ := (idx1 t).2.2.2.2.2.2.2.2.2.2.1
  match a with
  | ⟨0, _⟩ => show win1_10.index t (0 : Fin 2) * 128 + 1 * p.val = p.val; omega
  | ⟨1, _⟩ => show win1_10.index t (1 : Fin 2) * 256 + 1 * q.val = q.val; omega

theorem blk1_11 (c : Dev nD) (t : Fin cfg1.N) (p : Fin 128) (q : Fin 256) :
    iblk1 V c 11 t (ix2 p q) = V c main_v134 (ix2 p q) := by
  show V c main_v134 (((cfg1.win 11).blk t).view.emb (ix2 p q)) = V c main_v134 (ix2 p q)
  refine congrArg (V c main_v134) (funext fun a => Fin.ext ?_)
  obtain ⟨h0, h1⟩ := (idx1 t).2.2.2.2.2.2.2.2.2.2.2.1
  match a with
  | ⟨0, _⟩ => show win1_11.index t (0 : Fin 2) * 128 + 1 * p.val = p.val; omega
  | ⟨1, _⟩ => show win1_11.index t (1 : Fin 2) * 256 + 1 * q.val = q.val; omega

theorem blk1_12 (c : Dev nD) (t : Fin cfg1.N) (p : Fin 128) (q : Fin 256) :
    iblk1 V c 12 t (ix2 p q) = V c main_v136 (ix2 p q) := by
  show V c main_v136 (((cfg1.win 12).blk t).view.emb (ix2 p q)) = V c main_v136 (ix2 p q)
  refine congrArg (V c main_v136) (funext fun a => Fin.ext ?_)
  obtain ⟨h0, h1⟩ := (idx1 t).2.2.2.2.2.2.2.2.2.2.2.2.1
  match a with
  | ⟨0, _⟩ => show win1_12.index t (0 : Fin 2) * 128 + 1 * p.val = p.val; omega
  | ⟨1, _⟩ => show win1_12.index t (1 : Fin 2) * 256 + 1 * q.val = q.val; omega

theorem blk1_13 (c : Dev nD) (t : Fin cfg1.N) (p : Fin 1) (q : Fin 256) :
    iblk1 V c 13 t (ix2 p q) = V c main_v142 (ix2 p q) := by
  show V c main_v142 (((cfg1.win 13).blk t).view.emb (ix2 p q)) = V c main_v142 (ix2 p q)
  refine congrArg (V c main_v142) (funext fun a => Fin.ext ?_)
  obtain ⟨h0, h1⟩ := (idx1 t).2.2.2.2.2.2.2.2.2.2.2.2.2.1
  match a with
  | ⟨0, _⟩ => show win1_13.index t (0 : Fin 2) * 1 + 1 * p.val = p.val; omega
  | ⟨1, _⟩ => show win1_13.index t (1 : Fin 2) * 256 + 1 * q.val = q.val; omega

theorem blk1_14 (c : Dev nD) (t : Fin cfg1.N) (p : Fin 256) (q : Fin 128) :
    iblk1 V c 14 t (ix2 p q) = V c main_v138 (ix2 p q) := by
  show V c main_v138 (((cfg1.win 14).blk t).view.emb (ix2 p q)) = V c main_v138 (ix2 p q)
  refine congrArg (V c main_v138) (funext fun a => Fin.ext ?_)
  obtain ⟨h0, h1⟩ := (idx1 t).2.2.2.2.2.2.2.2.2.2.2.2.2.2.1
  match a with
  | ⟨0, _⟩ => show win1_14.index t (0 : Fin 2) * 256 + 1 * p.val = p.val; omega
  | ⟨1, _⟩ => show win1_14.index t (1 : Fin 2) * 128 + 1 * q.val = q.val; omega

theorem blk1_15 (c : Dev nD) (t : Fin cfg1.N) (p : Fin 256) (q : Fin 128) :
    iblk1 V c 15 t (ix2 p q) = V c main_v140 (ix2 p q) := by
  show V c main_v140 (((cfg1.win 15).blk t).view.emb (ix2 p q)) = V c main_v140 (ix2 p q)
  refine congrArg (V c main_v140) (funext fun a => Fin.ext ?_)
  obtain ⟨h0, h1⟩ := (idx1 t).2.2.2.2.2.2.2.2.2.2.2.2.2.2.2.1
  match a with
  | ⟨0, _⟩ => show win1_15.index t (0 : Fin 2) * 256 + 1 * p.val = p.val; omega
  | ⟨1, _⟩ => show win1_15.index t (1 : Fin 2) * 128 + 1 * q.val = q.val; omega

theorem blk1_16 (c : Dev nD) (t : Fin cfg1.N) (p : Fin 1) (q : Fin 128) :
    iblk1 V c 16 t (ix2 p q) = V c main_v143 (ix2 p q) := by
  show V c main_v143 (((cfg1.win 16).blk t).view.emb (ix2 p q)) = V c main_v143 (ix2 p q)
  refine congrArg (V c main_v143) (funext fun a => Fin.ext ?_)
  obtain ⟨h0, h1⟩ := (idx1 t).2.2.2.2.2.2.2.2.2.2.2.2.2.2.2.2.1
  match a with
  | ⟨0, _⟩ => show win1_16.index t (0 : Fin 2) * 1 + 1 * p.val = p.val; omega
  | ⟨1, _⟩ => show win1_16.index t (1 : Fin 2) * 128 + 1 * q.val = q.val; omega

/-! ## The output windows: membership in a block, the tiling, and a block entry's place in the array -/

/-- An array index lies in point `t`'s block of output window 9 iff its row is among the block's 1000 rows. -/
theorem mem_blk0_9 (t : Fin cfg0.N) (i : S50000x128.Idx) :
    i ∈ ((cfg0.win 9).blk t).view.set ↔ ∀ a : Fin 2, win0_9.index t a * S1000x128.size a ≤ (i a).val ∧ (i a).val < win0_9.index t a * S1000x128.size a + S1000x128.size a := by
  show i ∈ ((View.whole main_v48_0).slice (win0_9.rect t)).set ↔ _
  rw [View.set_slice_whole, Rect.mem_set_unit]
  exact Iff.rfl

/-- The blocks of output window 9 tile its array: row `i 0` lies in the block of point `i 0 / 1000`. -/
theorem cover0_9 (i : S50000x128.Idx) :
    ∃ t : Fin cfg0.N, (cfg0.win 9).flush t = true ∧ i ∈ ((cfg0.win 9).blk t).view.set := by
  have hN : grid0.N = 50 := N_0
  have hi0 : (i 0).val < 50000 := (i 0).isLt
  have hi1 : (i 1).val < 128 := (i 1).isLt
  refine ⟨⟨(i 0).val / 1000, by show (i 0).val / 1000 < grid0.N; omega⟩, flush0_9 _, ?_⟩
  rw [mem_blk0_9]
  obtain ⟨h0, h1⟩ := (idx0 ⟨(i 0).val / 1000, by show (i 0).val / 1000 < grid0.N; omega⟩).2.2.2.2.2.2.2.2.2.1
  intro a
  match a with
  | ⟨0, _⟩ =>
    show win0_9.index _ (0 : Fin 2) * 1000 ≤ (i 0).val ∧ (i 0).val < win0_9.index _ (0 : Fin 2) * 1000 + 1000
    rw [h0]; show (i 0).val / 1000 * 1000 ≤ (i 0).val ∧ (i 0).val < (i 0).val / 1000 * 1000 + 1000; omega
  | ⟨1, _⟩ =>
    show win0_9.index _ (1 : Fin 2) * 128 ≤ (i 1).val ∧ (i 1).val < win0_9.index _ (1 : Fin 2) * 128 + 128
    rw [h1]; omega

/-- Entry `(r, q)` of point `t`'s block of output window 9 is entry `(1000 t + r, q)` of the array. -/
theorem emb0_9 (t : Fin cfg0.N) (r : Fin 1000) (q : Fin 128) :
    ((cfg0.win 9).blk t).view.emb (ix2 r q) = ix2 (row0 t r) q := by
  refine funext fun a => Fin.ext ?_
  obtain ⟨h0, h1⟩ := (idx0 t).2.2.2.2.2.2.2.2.2.1
  match a with
  | ⟨0, _⟩ => show win0_9.index t (0 : Fin 2) * 1000 + 1 * r.val = 1000 * t.val + r.val; omega
  | ⟨1, _⟩ => show win0_9.index t (1 : Fin 2) * 128 + 1 * q.val = q.val; omega

/-- An array index lies in point `t`'s block of output window 10 iff its row is among the block's 1000 rows. -/
theorem mem_blk0_10 (t : Fin cfg0.N) (i : S50000x128.Idx) :
    i ∈ ((cfg0.win 10).blk t).view.set ↔ ∀ a : Fin 2, win0_10.index t a * S1000x128.size a ≤ (i a).val ∧ (i a).val < win0_10.index t a * S1000x128.size a + S1000x128.size a := by
  show i ∈ ((View.whole main_v48_1).slice (win0_10.rect t)).set ↔ _
  rw [View.set_slice_whole, Rect.mem_set_unit]
  exact Iff.rfl

/-- The blocks of output window 10 tile its array: row `i 0` lies in the block of point `i 0 / 1000`. -/
theorem cover0_10 (i : S50000x128.Idx) :
    ∃ t : Fin cfg0.N, (cfg0.win 10).flush t = true ∧ i ∈ ((cfg0.win 10).blk t).view.set := by
  have hN : grid0.N = 50 := N_0
  have hi0 : (i 0).val < 50000 := (i 0).isLt
  have hi1 : (i 1).val < 128 := (i 1).isLt
  refine ⟨⟨(i 0).val / 1000, by show (i 0).val / 1000 < grid0.N; omega⟩, flush0_10 _, ?_⟩
  rw [mem_blk0_10]
  obtain ⟨h0, h1⟩ := (idx0 ⟨(i 0).val / 1000, by show (i 0).val / 1000 < grid0.N; omega⟩).2.2.2.2.2.2.2.2.2.2
  intro a
  match a with
  | ⟨0, _⟩ =>
    show win0_10.index _ (0 : Fin 2) * 1000 ≤ (i 0).val ∧ (i 0).val < win0_10.index _ (0 : Fin 2) * 1000 + 1000
    rw [h0]; show (i 0).val / 1000 * 1000 ≤ (i 0).val ∧ (i 0).val < (i 0).val / 1000 * 1000 + 1000; omega
  | ⟨1, _⟩ =>
    show win0_10.index _ (1 : Fin 2) * 128 ≤ (i 1).val ∧ (i 1).val < win0_10.index _ (1 : Fin 2) * 128 + 128
    rw [h1]; omega

/-- Entry `(r, q)` of point `t`'s block of output window 10 is entry `(1000 t + r, q)` of the array. -/
theorem emb0_10 (t : Fin cfg0.N) (r : Fin 1000) (q : Fin 128) :
    ((cfg0.win 10).blk t).view.emb (ix2 r q) = ix2 (row0 t r) q := by
  refine funext fun a => Fin.ext ?_
  obtain ⟨h0, h1⟩ := (idx0 t).2.2.2.2.2.2.2.2.2.2
  match a with
  | ⟨0, _⟩ => show win0_10.index t (0 : Fin 2) * 1000 + 1 * r.val = 1000 * t.val + r.val; omega
  | ⟨1, _⟩ => show win0_10.index t (1 : Fin 2) * 128 + 1 * q.val = q.val; omega

/-- An array index lies in point `t`'s block of output window 17 iff its row is among the block's 1000 rows. -/
theorem mem_blk1_17 (t : Fin cfg1.N) (i : S50000x128.Idx) :
    i ∈ ((cfg1.win 17).blk t).view.set ↔ ∀ a : Fin 2, win1_17.index t a * S1000x128.size a ≤ (i a).val ∧ (i a).val < win1_17.index t a * S1000x128.size a + S1000x128.size a := by
  show i ∈ ((View.whole main_v144).slice (win1_17.rect t)).set ↔ _
  rw [View.set_slice_whole, Rect.mem_set_unit]
  exact Iff.rfl

/-- The blocks of output window 17 tile its array: row `i 0` lies in the block of point `i 0 / 1000`. -/
theorem cover1_17 (i : S50000x128.Idx) :
    ∃ t : Fin cfg1.N, (cfg1.win 17).flush t = true ∧ i ∈ ((cfg1.win 17).blk t).view.set := by
  have hN : grid1.N = 50 := N_1
  have hi0 : (i 0).val < 50000 := (i 0).isLt
  have hi1 : (i 1).val < 128 := (i 1).isLt
  refine ⟨⟨(i 0).val / 1000, by show (i 0).val / 1000 < grid1.N; omega⟩, flush1_17 _, ?_⟩
  rw [mem_blk1_17]
  obtain ⟨h0, h1⟩ := (idx1 ⟨(i 0).val / 1000, by show (i 0).val / 1000 < grid1.N; omega⟩).2.2.2.2.2.2.2.2.2.2.2.2.2.2.2.2.2
  intro a
  match a with
  | ⟨0, _⟩ =>
    show win1_17.index _ (0 : Fin 2) * 1000 ≤ (i 0).val ∧ (i 0).val < win1_17.index _ (0 : Fin 2) * 1000 + 1000
    rw [h0]; show (i 0).val / 1000 * 1000 ≤ (i 0).val ∧ (i 0).val < (i 0).val / 1000 * 1000 + 1000; omega
  | ⟨1, _⟩ =>
    show win1_17.index _ (1 : Fin 2) * 128 ≤ (i 1).val ∧ (i 1).val < win1_17.index _ (1 : Fin 2) * 128 + 128
    rw [h1]; omega

/-- Entry `(r, q)` of point `t`'s block of output window 17 is entry `(1000 t + r, q)` of the array. -/
theorem emb1_17 (t : Fin cfg1.N) (r : Fin 1000) (q : Fin 128) :
    ((cfg1.win 17).blk t).view.emb (ix2 r q) = ix2 (row1 t r) q := by
  refine funext fun a => Fin.ext ?_
  obtain ⟨h0, h1⟩ := (idx1 t).2.2.2.2.2.2.2.2.2.2.2.2.2.2.2.2.2
  match a with
  | ⟨0, _⟩ => show win1_17.index t (0 : Fin 2) * 1000 + 1 * r.val = 1000 * t.val + r.val; omega
  | ⟨1, _⟩ => show win1_17.index t (1 : Fin 2) * 128 + 1 * q.val = q.val; omega

end Cert.KernelIdeal.Reads

end
-- ==== Proof.Spec.lean ====
/-
  One entry of a dense layer over the extended reals whose input rows come in two or three column pieces.

  With the pieces `a`, `b` (and `d`) of a row, the matching row blocks `A`, `B` (and `D`) of the weight matrix and
  the bias `β`, entry `(r, c)` of the layer is

      tanh (Σ_k a(r,k)·A(k,c) + Σ_k b(r,k)·B(k,c) + β c)                      two pieces
      tanh ((Σ_k a(r,k)·A(k,c) + Σ_k b(r,k)·B(k,c)) + Σ_k d(r,k)·D(k,c) + β c)  three pieces

  with the additions grouped from the left. A product of the concatenated row with the whole matrix splits into
  these sums by associativity and commutativity of addition alone, so nothing here asks for finite entries.
-/
import Idealize.ShloMosaic.Lib.ValueIdx
import Idealize.ShloMosaic.PureOps.Ideal

noncomputable section

namespace Cert.Spec

open Idealize.ShloMosaic Idealize.ShloMosaic.ValueIdx

/-- Entry `(r, c)` of `tanh (a·A + b·B + β)`. -/
def mix2 {R m n p : Nat} (a : (⟨2, ![R, m]⟩ : Shape).Idx → EReal) (b : (⟨2, ![R, n]⟩ : Shape).Idx → EReal)
    (A : (⟨2, ![m, p]⟩ : Shape).Idx → EReal) (B : (⟨2, ![n, p]⟩ : Shape).Idx → EReal) (β : Fin p → EReal)
    (r : Fin R) (c : Fin p) : EReal :=
  Ideal.tanh ((∑ k : Fin m, a (ix2 r k) * A (ix2 k c) + ∑ k : Fin n, b (ix2 r k) * B (ix2 k c)) + β c)

/-- Entry `(r, c)` of `tanh (a·A + b·B + d·D + β)`. -/
def mix3 {R m n o p : Nat} (a : (⟨2, ![R, m]⟩ : Shape).Idx → EReal) (b : (⟨2, ![R, n]⟩ : Shape).Idx → EReal)
    (d : (⟨2, ![R, o]⟩ : Shape).Idx → EReal)
    (A : (⟨2, ![m, p]⟩ : Shape).Idx → EReal) (B : (⟨2, ![n, p]⟩ : Shape).Idx → EReal)
    (D : (⟨2, ![o, p]⟩ : Shape).Idx → EReal) (β : Fin p → EReal)
    (r : Fin R) (c : Fin p) : EReal :=
  Ideal.tanh (((∑ k : Fin m, a (ix2 r k) * A (ix2 k c) + ∑ k : Fin n, b (ix2 r k) * B (ix2 k c))
    + ∑ k : Fin o, d (ix2 r k) * D (ix2 k c)) + β c)

/-- The two-piece layer as a whole array. -/
def mix2A {R m n p : Nat} (a : (⟨2, ![R, m]⟩ : Shape).Idx → EReal) (b : (⟨2, ![R, n]⟩ : Shape).Idx → EReal)
    (A : (⟨2, ![m, p]⟩ : Shape).Idx → EReal) (B : (⟨2, ![n, p]⟩ : Shape).Idx → EReal) (β : Fin p → EReal) :
    (⟨2, ![R, p]⟩ : Shape).Idx → EReal :=
  fun i => mix2 a b A B β (i 0) (i 1)

/-- The three-piece layer as a whole array. -/
def mix3A {R m n o p : Nat} (a : (⟨2, ![R, m]⟩ : Shape).Idx → EReal) (b : (⟨2, ![R, n]⟩ : Shape).Idx → EReal)
    (d : (⟨2, ![R, o]⟩ : Shape).Idx → EReal)
    (A : (⟨2, ![m, p]⟩ : Shape).Idx → EReal) (B : (⟨2, ![n, p]⟩ : Shape).Idx → EReal)
    (D : (⟨2, ![o, p]⟩ : Shape).Idx → EReal) (β : Fin p → EReal) :
    (⟨2, ![R, p]⟩ : Shape).Idx → EReal :=
  fun i => mix3 a b d A B D β (i 0) (i 1)

theorem mix2A_apply {R m n p : Nat} (a : (⟨2, ![R, m]⟩ : Shape).Idx → EReal) (b : (⟨2, ![R, n]⟩ : Shape).Idx → EReal)
    (A : (⟨2, ![m, p]⟩ : Shape).Idx → EReal) (B : (⟨2, ![n, p]⟩ : Shape).Idx → EReal) (β : Fin p → EReal)
    (r : Fin R) (c : Fin p) : mix2A a b A B β (ix2 r c) = mix2 a b A B β r c := rfl

theorem mix3A_apply {R m n o p : Nat} (a : (⟨2, ![R, m]⟩ : Shape).Idx → EReal) (b : (⟨2, ![R, n]⟩ : Shape).Idx → EReal)
    (d : (⟨2, ![R, o]⟩ : Shape).Idx → EReal)
    (A : (⟨2, ![m, p]⟩ : Shape).Idx → EReal) (B : (⟨2, ![n, p]⟩ : Shape).Idx → EReal)
    (D : (⟨2, ![o, p]⟩ : Shape).Idx → EReal) (β : Fin p → EReal)
    (r : Fin R) (c : Fin p) : mix3A a b d A B D β (ix2 r c) = mix3 a b d A B D β r c := rfl

end Cert.Spec

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.Payloads.lean ====
/-
  The arithmetic of the two layer bodies read at one entry over the extended reals.

  Each body computes tanh of a sum of matrix products plus a bias row repeated over the rows. Every product is
  accumulated into zero, so its entry (r, c) is the plain sum over the contracted axis; a reshape to the same
  shape and a narrowing of the element type are the identity on the values; the repeated bias row reads its
  one row. Entry (r, c) of each body is therefore the two- or three-piece layer of `Cert.Spec`.
-/
import proofs.«111255_j13589276524974_1_alg».proof.Proof.Gen.KernelIdeal.Skeleton
import proofs.«111255_j13589276524974_1_alg».proof.Proof.Spec
import proofs.«111255_j13589276524974_1_alg».proof.Proof.LibDotRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Spec

/-- Entry `(r, c)` of the first body's stored value: the two-piece layer of the first and second inputs. -/
theorem k0_pay2_apply (v0 v3 : Vec Ideal S1000x128 .f32) (v8 v11 : Vec Ideal S128x128 .bf16) (v15 : Vec Ideal S1x128 .f32) (r : Fin 1000) (c : Fin 128) :
    k0_pay2 (F := Ideal) v0 v3 v8 v11 v15 (ix2 r c) = mix2 v0 v3 v8 v11 (fun q => v15 (ix2 (0 : Fin 1) q)) r c := by
  unfold k0_pay2 k0_pay1 mix2
  simp only [shapeCast_self]
  refine congrArg Ideal.tanh (congrArg₂ (· + ·) (congrArg₂ (· + ·) ?_ ?_) ?_)
  · exact DotRead.matmul_plain_zero_apply 1000 128 128 none _ _ r c
  · exact DotRead.matmul_plain_zero_apply 1000 128 128 none _ _ r c
  · exact broadcastTo_1b_ab_apply v15 _ r c

/-- Entry `(r, c)` of the first body's returned value: the two-piece layer of the third and second inputs. -/
theorem k0_pay3_apply (v3 v5 : Vec Ideal S1000x128 .f32) (v21 v24 : Vec Ideal S128x128 .bf16) (v28 : Vec Ideal S1x128 .f32) (r : Fin 1000) (c : Fin 128) :
    k0_pay3 (F := Ideal) v3 v5 v21 v24 v28 (ix2 r c) = mix2 v5 v3 v21 v24 (fun q => v28 (ix2 (0 : Fin 1) q)) r c := by
  unfold k0_pay3 k0_pay1 mix2
  simp only [shapeCast_self]
  refine congrArg Ideal.tanh (congrArg₂ (· + ·) (congrArg₂ (· + ·) ?_ ?_) ?_)
  · exact DotRead.matmul_plain_zero_apply 1000 128 128 none _ _ r c
  · exact DotRead.matmul_plain_zero_apply 1000 128 128 none _ _ r c
  · exact broadcastTo_1b_ab_apply v28 _ r c

/-- Entry `(r, c)` of the second body's first layer: the three-piece layer of the first three inputs. -/
theorem k1_pay5_apply (v0 v3 v6 : Vec Ideal S1000x128 .f32) (v18 v21 v25 : Vec Ideal S128x256 .bf16) (v29 : Vec Ideal S1x256 .f32) (r : Fin 1000) (c : Fin 256) :
    k1_pay5 (F := Ideal) v0 v3 v6 v18 v21 v25 v29 (ix2 r c) = mix3 v0 v3 v6 v18 v21 v25 (fun q => v29 (ix2 (0 : Fin 1) q)) r c := by
  unfold k1_pay5 mix3
  simp only [shapeCast_self]
  refine congrArg Ideal.tanh (congrArg₂ (· + ·) (congrArg₂ (· + ·) (congrArg₂ (· + ·) ?_ ?_) ?_) ?_)
  · exact DotRead.matmul_plain_zero_apply 1000 128 256 none _ _ r c
  · exact DotRead.matmul_plain_zero_apply 1000 128 256 none _ _ r c
  · exact DotRead.matmul_plain_zero_apply 1000 128 256 none _ _ r c
  · exact broadcastTo_1b_ab_apply v29 _ r c

/-- Entry `(r, c)` of the second body's stored value: the two-piece layer whose first piece is the returned first
    layer and whose second piece is the three-piece layer of the last three inputs. -/
theorem k1_pay1_apply (v9 v12 v15 : Vec Ideal S1000x128 .f32) (v33 : FVec Ideal S1000x256 .f32) (v34 v37 v41 : Vec Ideal S128x256 .bf16) (v45 : Vec Ideal S1x256 .f32) (v52 v55 : Vec Ideal S256x128 .bf16) (v59 : Vec Ideal S1x128 .f32) (r : Fin 1000) (c : Fin 128) :
    k1_pay1 (F := Ideal) (k1_pay2 v9) (k1_pay3 v12) (k1_pay4 v15) v33 v34 v37 v41 v45 v52 v55 v59 (ix2 r c)
      = mix2 v33 (mix3A v9 v12 v15 v34 v37 v41 (fun q => v45 (ix2 (0 : Fin 1) q))) v52 v55 (fun q => v59 (ix2 (0 : Fin 1) q)) r c := by
  unfold k1_pay1 k1_pay2 k1_pay3 k1_pay4 mix2
  simp only [shapeCast_self]
  refine congrArg Ideal.tanh (congrArg₂ (· + ·) (congrArg₂ (· + ·) ?_ ?_) ?_)
  · exact DotRead.matmul_plain_zero_apply 1000 256 128 none _ _ r c
  · refine (DotRead.matmul_plain_zero_apply (φ₁ := .bf16) (φ₂ := .bf16) 1000 256 128 none _ _ r c).trans ?_
    refine Finset.sum_congr rfl fun k _ => congrArg (· * v55 (ix2 k c)) ?_
    show _ = mix3 v9 v12 v15 v34 v37 v41 (fun q => v45 (ix2 (0 : Fin 1) q)) r k
    unfold mix3
    refine congrArg Ideal.tanh (congrArg₂ (· + ·) (congrArg₂ (· + ·) (congrArg₂ (· + ·) ?_ ?_) ?_) ?_)
    · exact DotRead.matmul_plain_zero_apply 1000 128 256 none _ _ r k
    · exact DotRead.matmul_plain_zero_apply 1000 128 256 none _ _ r k
    · exact DotRead.matmul_plain_zero_apply 1000 128 256 none _ _ r k
    · exact broadcastTo_1b_ab_apply v45 _ r k
  · exact broadcastTo_1b_ab_apply v59 _ r c

end Cert.KernelIdeal.Pay

end
-- ==== Proof.SpecCongr.lean ====
/-
  Two entries of a dense layer agree when the row pieces agree along the row, the weight blocks agree along the
  column, and the bias agrees at the column: the layer's entry reads nothing else.
-/
import proofs.«111255_j13589276524974_1_alg».proof.Proof.Spec

noncomputable section

namespace Cert.Spec

open Idealize.ShloMosaic Idealize.ShloMosaic.ValueIdx

theorem mix2_congr {R R' m n p : Nat}
    {a : (⟨2, ![R, m]⟩ : Shape).Idx → EReal} {a' : (⟨2, ![R', m]⟩ : Shape).Idx → EReal}
    {b : (⟨2, ![R, n]⟩ : Shape).Idx → EReal} {b' : (⟨2, ![R', n]⟩ : Shape).Idx → EReal}
    {A A' : (⟨2, ![m, p]⟩ : Shape).Idx → EReal} {B B' : (⟨2, ![n, p]⟩ : Shape).Idx → EReal} {β β' : Fin p → EReal}
    (r : Fin R) (r' : Fin R') (c : Fin p)
    (ha : ∀ k, a (ix2 r k) = a' (ix2 r' k)) (hb : ∀ k, b (ix2 r k) = b' (ix2 r' k))
    (hA : ∀ k, A (ix2 k c) = A' (ix2 k c)) (hB : ∀ k, B (ix2 k c) = B' (ix2 k c)) (hβ : β c = β' c) :
    mix2 a b A B β r c = mix2 a' b' A' B' β' r' c := by
  unfold mix2
  simp only [ha, hb, hA, hB, hβ]

theorem mix3_congr {R R' m n o p : Nat}
    {a : (⟨2, ![R, m]⟩ : Shape).Idx → EReal} {a' : (⟨2, ![R', m]⟩ : Shape).Idx → EReal}
    {b : (⟨2, ![R, n]⟩ : Shape).Idx → EReal} {b' : (⟨2, ![R', n]⟩ : Shape).Idx → EReal}
    {d : (⟨2, ![R, o]⟩ : Shape).Idx → EReal} {d' : (⟨2, ![R', o]⟩ : Shape).Idx → EReal}
    {A A' : (⟨2, ![m, p]⟩ : Shape).Idx → EReal} {B B' : (⟨2, ![n, p]⟩ : Shape).Idx → EReal}
    {D D' : (⟨2, ![o, p]⟩ : Shape).Idx → EReal} {β β' : Fin p → EReal}
    (r : Fin R) (r' : Fin R') (c : Fin p)
    (ha : ∀ k, a (ix2 r k) = a' (ix2 r' k)) (hb : ∀ k, b (ix2 r k) = b' (ix2 r' k)) (hd : ∀ k, d (ix2 r k) = d' (ix2 r' k))
    (hA : ∀ k, A (ix2 k c) = A' (ix2 k c)) (hB : ∀ k, B (ix2 k c) = B' (ix2 k c)) (hD : ∀ k, D (ix2 k c) = D' (ix2 k c))
    (hβ : β c = β' c) :
    mix3 a b d A B D β r c = mix3 a' b' d' A' B' D' β' r' c := by
  unfold mix3
  simp only [ha, hb, hd, hA, hB, hD, hβ]

end Cert.Spec

end
-- ==== Proof.KFinal.lean ====
/-
  The arrays the two pallas_calls leave, as dense layers of the arrays they find.

  Point `t` of either grid loads rows `1000 t … 1000 t + 999` of each activation and the whole of each weight block
  and bias, and stores one 1000 × 128 block. Read at an entry, the stored block is the dense layer of `Spec` of the
  loaded blocks (the body's arithmetic, `Pay`); a loaded row-block's row `r` is the array's row `1000 t + r`, a weight
  block is its array; so the stored block is block `t` of the layer of the whole arrays. The 50 stored blocks tile
  the output array, which therefore ends holding that layer.
    first call:   hb1 = tanh (pos·A + x·B + β),  hn1 = tanh (neg·A' + x·B' + β')
    second call:  out = tanh (hb2·A₄ + hn2·B₄ + β₄)  with hb2, hn2 the three-piece layers of the second-layer means
                  (they are never stored: the body keeps them in registers, one block at a time).
-/
import proofs.«111255_j13589276524974_1_alg».proof.Proof.Gen.KernelIdeal.Frame
import proofs.«111255_j13589276524974_1_alg».proof.Proof.KReads
import proofs.«111255_j13589276524974_1_alg».proof.Proof.Payloads
import proofs.«111255_j13589276524974_1_alg».proof.Proof.SpecCongr
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Reads Cert.KernelIdeal.Pay Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The first output: the layer of the positive-edge means and the features. -/
def G9 (c : Dev nD) : S50000x128.Idx → EReal :=
  mix2A (V c main_v18) (V c main_arg0) (V c main_v39) (V c main_v41) (fun q => V c main_v46 (ix2 (0 : Fin 1) q))

/-- The second output: the layer of the negative-edge means and the features. -/
def G10 (c : Dev nD) : S50000x128.Idx → EReal :=
  mix2A (V c main_v37) (V c main_arg0) (V c main_v43) (V c main_v45) (fun q => V c main_v47 (ix2 (0 : Fin 1) q))

/-- What point `t` writes back to the first output is block `t` of `G9`. -/
theorem flushed9 (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz]
  simp only [View.ld_unit_zero (S := S1000x128) hz, View.ld_unit_zero (S := S128x128) hz, View.ld_unit_zero (S := S1x128) hz]
  funext j
  obtain ⟨r, q, rfl⟩ : ∃ (r : Fin 1000) (q : Fin 128), j = ix2 r q := ⟨j 0, j 1, eq_ix2 j⟩
  show k0_pay2 (F := Ideal) (iblk0 V c 0 t) (iblk0 V c 1 t) (iblk0 V c 3 t) (iblk0 V c 4 t) (iblk0 V c 5 t) (ix2 r q)
    = G9 V c (((cfg0.win 9).blk t).view.emb (ix2 r q))
  rw [emb0_9 t r q]
  refine (k0_pay2_apply (iblk0 V c 0 t) (iblk0 V c 1 t) (iblk0 V c 3 t) (iblk0 V c 4 t) (iblk0 V c 5 t) r q).trans ?_
  unfold G9
  rw [mix2A_apply]
  exact mix2_congr r (row0 t r) q (fun k => blk0_0 V c t r k) (fun k => blk0_1 V c t r k)
    (fun k => blk0_3 V c t k q) (fun k => blk0_4 V c t k q) (blk0_5 V c t 0 q)

/-- What point `t` writes back to the second output is block `t` of `G10`. -/
theorem flushed10 (c : Dev nD) (t : Fin cfg0.N) :
    (dat0 V c).flushed 10 t = ((cfg0.win 10).blk t).view.read (Elt Ideal) (G10 V c) := by
  show (cfg0.win 10).cut (grid0.coords t) ((dat0 V c).after 10 t) = _
  rw [after0_10]
  unfold out0_10
  rw [View.canon_unit_zero hz]
  simp only [View.ld_unit_zero (S := S1000x128) hz, View.ld_unit_zero (S := S128x128) hz, View.ld_unit_zero (S := S1x128) hz]
  funext j
  obtain ⟨r, q, rfl⟩ : ∃ (r : Fin 1000) (q : Fin 128), j = ix2 r q := ⟨j 0, j 1, eq_ix2 j⟩
  show k0_pay3 (F := Ideal) (iblk0 V c 1 t) (iblk0 V c 2 t) (iblk0 V c 6 t) (iblk0 V c 7 t) (iblk0 V c 8 t) (ix2 r q)
    = G10 V c (((cfg0.win 10).blk t).view.emb (ix2 r q))
  rw [emb0_10 t r q]
  refine (k0_pay3_apply (iblk0 V c 1 t) (iblk0 V c 2 t) (iblk0 V c 6 t) (iblk0 V c 7 t) (iblk0 V c 8 t) r q).trans ?_
  unfold G10
  rw [mix2A_apply]
  exact mix2_congr r (row0 t r) q (fun k => blk0_2 V c t r k) (fun k => blk0_1 V c t r k)
    (fun k => blk0_6 V c t k q) (fun k => blk0_7 V c t k q) (blk0_8 V c t 0 q)

/-- The first output array after the call. -/
theorem final9 (c : Dev nD) : (dat0 V c).arrAt 9 cfg0.N = G9 V c :=
  (dat0 V c).arrAt_eq_of_cover 9 (G9 V c) (fun t _ => flushed9 V c t) cover0_9

/-- The second output array after the call. -/
theorem final10 (c : Dev nD) : (dat0 V c).arrAt 10 cfg0.N = G10 V c :=
  (dat0 V c).arrAt_eq_of_cover 10 (G10 V c) (fun t _ => flushed10 V c t) cover0_10

/-! ## The second call -/

/-- The balanced second-layer activations: never an array of the program, a function of the arrays the call finds. -/
def HB2 (c : Dev nD) : (⟨2, ![50000, 256]⟩ : Shape).Idx → EReal :=
  mix3A (V c main_v67) (V c main_v86) (V c main_v48_0) (V c main_v126) (V c main_v128) (V c main_v130)
    (fun q => V c main_v141 (ix2 (0 : Fin 1) q))

/-- The unbalanced second-layer activations. -/
def HN2 (c : Dev nD) : (⟨2, ![50000, 256]⟩ : Shape).Idx → EReal :=
  mix3A (V c main_v105) (V c main_v124) (V c main_v48_1) (V c main_v132) (V c main_v134) (V c main_v136)
    (fun q => V c main_v142 (ix2 (0 : Fin 1) q))

/-- The result: the layer of the two second-layer activations. -/
def G17 (c : Dev nD) : S50000x128.Idx → EReal :=
  mix2A (HB2 V c) (HN2 V c) (V c main_v138) (V c main_v140) (fun q => V c main_v143 (ix2 (0 : Fin 1) q))

/-- What point `t` writes back to the result is block `t` of `G17`. -/
theorem flushed17 (c : Dev nD) (t : Fin cfg1.N) :
    (dat1 V c).flushed 17 t = ((cfg1.win 17).blk t).view.read (Elt Ideal) (G17 V c) := by
  show (cfg1.win 17).cut (grid1.coords t) ((dat1 V c).after 17 t) = _
  rw [after1_17]
  unfold out1_17
  rw [View.canon_unit_zero hz]
  simp only [View.ld_unit_zero (S := S1000x128) hz, View.ld_unit_zero (S := S128x256) hz, View.ld_unit_zero (S := S1x256) hz,
    View.ld_unit_zero (S := S256x128) hz, View.ld_unit_zero (S := S1x128) hz]
  funext j
  obtain ⟨r, q, rfl⟩ : ∃ (r : Fin 1000) (q : Fin 128), j = ix2 r q := ⟨j 0, j 1, eq_ix2 j⟩
  show k1_pay1 (F := Ideal) (k1_pay2 (iblk1 V c 3 t)) (k1_pay3 (iblk1 V c 4 t)) (k1_pay4 (iblk1 V c 5 t))
      (k1_pay5 (iblk1 V c 0 t) (iblk1 V c 1 t) (iblk1 V c 2 t) (iblk1 V c 6 t) (iblk1 V c 7 t) (iblk1 V c 8 t) (iblk1 V c 9 t))
      (iblk1 V c 10 t) (iblk1 V c 11 t) (iblk1 V c 12 t) (iblk1 V c 13 t) (iblk1 V c 14 t) (iblk1 V c 15 t) (iblk1 V c 16 t) (ix2 r q)
    = G17 V c (((cfg1.win 17).blk t).view.emb (ix2 r q))
  rw [emb1_17 t r q]
  refine (k1_pay1_apply (iblk1 V c 3 t) (iblk1 V c 4 t) (iblk1 V c 5 t)
      (k1_pay5 (iblk1 V c 0 t) (iblk1 V c 1 t) (iblk1 V c 2 t) (iblk1 V c 6 t) (iblk1 V c 7 t) (iblk1 V c 8 t) (iblk1 V c 9 t))
      (iblk1 V c 10 t) (iblk1 V c 11 t) (iblk1 V c 12 t) (iblk1 V c 13 t) (iblk1 V c 14 t) (iblk1 V c 15 t) (iblk1 V c 16 t) r q).trans ?_
  unfold G17
  rw [mix2A_apply]
  refine mix2_congr r (row1 t r) q (fun k => ?_) (fun k => ?_)
    (fun k => blk1_14 V c t k q) (fun k => blk1_15 V c t k q) (blk1_16 V c t 0 q)
  · refine (k1_pay5_apply (iblk1 V c 0 t) (iblk1 V c 1 t) (iblk1 V c 2 t) (iblk1 V c 6 t) (iblk1 V c 7 t) (iblk1 V c 8 t) (iblk1 V c 9 t) r k).trans ?_
    unfold HB2
    rw [mix3A_apply]
    exact mix3_congr r (row1 t r) k (fun k' => blk1_0 V c t r k') (fun k' => blk1_1 V c t r k') (fun k' => blk1_2 V c t r k')
      (fun k' => blk1_6 V c t k' k) (fun k' => blk1_7 V c t k' k) (fun k' => blk1_8 V c t k' k) (blk1_9 V c t 0 k)
  · unfold HN2
    rw [mix3A_apply, mix3A_apply]
    exact mix3_congr r (row1 t r) k (fun k' => blk1_3 V c t r k') (fun k' => blk1_4 V c t r k') (fun k' => blk1_5 V c t r k')
      (fun k' => blk1_10 V c t k' k) (fun k' => blk1_11 V c t k' k) (fun k' => blk1_12 V c t k' k) (blk1_13 V c t 0 k)

/-- The result array after the call. -/
theorem final17 (c : Dev nD) : (dat1 V c).arrAt 17 cfg1.N = G17 V c :=
  (dat1 V c).arrAt_eq_of_cover 17 (G17 V c) (fun t _ => flushed17 V c t) cover1_17

end Cert.KernelIdeal.Final

end
-- ==== Proof.KHost.lean ====
/-
  The host operations before and between the two layer bodies, read as terms of the contents they start from,
  over the extended reals.

  A neighbourhood mean of a feature array along an edge list (sources, destinations): gather the features at
  the sources (a negative source index wrapped once by the number of nodes), add them up at the destinations,
  and divide each node's sum by its number of incoming edges, at least one. The weight matrices are cut into
  row blocks and narrowed; the bias vectors become one-row matrices.
-/
import proofs.«111255_j13589276524974_1_alg».proof.Proof.Gen.KernelIdeal.Frame
import Idealize.ShloMosaic.Lib.StableHlo.Run
import Idealize.ShloMosaic.PureOps.Ideal

set_option pp.maxSteps 5000
set_option pp.deepTerms false
set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

/-- The mean of `feat` over each node's incoming edges: the rows of `feat` at the sources summed at the destinations,
    divided by the number of incoming edges or by one where there is none. -/
noncomputable def segMean (feat : FVec Ideal S50000x128 .f32) (src dst : (⟨S800000, .i32⟩ : BufTy).Contents (Elt Ideal)) :
    FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

variable (W : Valuation τ sig (Elt Ideal))

/-! ## The operations before the first body -/

set_option maxHeartbeats 8000000 in
theorem ops0_v18 :
    (StableHlo.after hostOps0 W (Proc.devRef .tc main_v18) : (⟨S50000x128, .f32⟩ : BufTy).Contents (Elt Ideal))
      = segMean (W (Proc.devRef .tc main_arg0)) (W (Proc.devRef .tc main_arg1)) (W (Proc.devRef .tc main_arg2)) := by
  dsimp only [hostOps0]; after_results_simp; rfl

set_option maxHeartbeats 8000000 in
theorem ops0_v37 :
    (StableHlo.after hostOps0 W (Proc.devRef .tc main_v37) : (⟨S50000x128, .f32⟩ : BufTy).Contents (Elt Ideal))
      = segMean (W (Proc.devRef .tc main_arg0)) (W (Proc.devRef .tc main_arg3)) (W (Proc.devRef .tc main_arg4)) := by
  dsimp only [hostOps0]; after_results_simp; rfl

theorem ops0_v39 :
    (StableHlo.after hostOps0 W (Proc.devRef .tc main_v39) : (⟨S128x128, .bf16⟩ : BufTy).Contents (Elt Ideal))
      = (truncf .bf16 (extractStridedSlice S128x128 ![0, 0] (W (Proc.devRef .tc main_arg5)) slices_S256x128_S128x128_0_0) bitsLt_bf16_f32 : FVec Ideal S128x128 .bf16) := by
  dsimp only [hostOps0]; after_results

theorem ops0_v41 :
    (StableHlo.after hostOps0 W (Proc.devRef .tc main_v41) : (⟨S128x128, .bf16⟩ : BufTy).Contents (Elt Ideal))
      = (truncf .bf16 (extractStridedSlice S128x128 ![128, 0] (W (Proc.devRef .tc main_arg5)) slices_S256x128_S128x128_128_0) bitsLt_bf16_f32 : FVec Ideal S128x128 .bf16) := by
  dsimp only [hostOps0]; after_results

theorem ops0_v43 :
    (StableHlo.after hostOps0 W (Proc.devRef .tc main_v43) : (⟨S128x128, .bf16⟩ : BufTy).Contents (Elt Ideal))
      = (truncf .bf16 (extractStridedSlice S128x128 ![0, 0] (W (Proc.devRef .tc main_arg7)) slices_S256x128_S128x128_0_0) bitsLt_bf16_f32 : FVec Ideal S128x128 .bf16) := by
  dsimp only [hostOps0]; after_results

theorem ops0_v45 :
    (StableHlo.after hostOps0 W (Proc.devRef .tc main_v45) : (⟨S128x128, .bf16⟩ : BufTy).Contents (Elt Ideal))
      = (truncf .bf16 (extractStridedSlice S128x128 ![128, 0] (W (Proc.devRef .tc main_arg7)) slices_S256x128_S128x128_128_0) bitsLt_bf16_f32 : FVec Ideal S128x128 .bf16) := by
  dsimp only [hostOps0]; after_results

theorem ops0_v46 :
    (StableHlo.after hostOps0 W (Proc.devRef .tc main_v46) : (⟨S1x128, .f32⟩ : BufTy).Contents (Elt Ideal))
      = shapeCast S1x128 (W (Proc.devRef .tc main_arg6)) shapeCasts_S128_S1x128 := by
  dsimp only [hostOps0]; after_results; rfl

theorem ops0_v47 :
    (StableHlo.after hostOps0 W (Proc.devRef .tc main_v47) : (⟨S1x128, .f32⟩ : BufTy).Contents (Elt Ideal))
      = shapeCast S1x128 (W (Proc.devRef .tc main_arg8)) shapeCasts_S128_S1x128 := by
  dsimp only [hostOps0]; after_results; rfl

theorem ops0_arg0 :
    StableHlo.after hostOps0 W (Proc.devRef .tc main_arg0) = W (Proc.devRef .tc main_arg0) := by
  dsimp only [hostOps0]; after_results

/-! ## The operations between the two bodies -/

set_option maxHeartbeats 8000000 in
theorem ops1_v67 :
    (StableHlo.after hostOps1 W (Proc.devRef .tc main_v67) : (⟨S50000x128, .f32⟩ : BufTy).Contents (Elt Ideal))
      = segMean (W (Proc.devRef .tc main_v48_0)) (W (Proc.devRef .tc main_arg1)) (W (Proc.devRef .tc main_arg2)) := by
  dsimp only [hostOps1]; after_results_simp; rfl

set_option maxHeartbeats 8000000 in
theorem ops1_v86 :
    (StableHlo.after hostOps1 W (Proc.devRef .tc main_v86) : (⟨S50000x128, .f32⟩ : BufTy).Contents (Elt Ideal))
      = segMean (W (Proc.devRef .tc main_v48_1)) (W (Proc.devRef .tc main_arg3)) (W (Proc.devRef .tc main_arg4)) := by
  dsimp only [hostOps1]; after_results_simp; rfl

set_option maxHeartbeats 8000000 in
theorem ops1_v105 :
    (StableHlo.after hostOps1 W (Proc.devRef .tc main_v105) : (⟨S50000x128, .f32⟩ : BufTy).Contents (Elt Ideal))
      = segMean (W (Proc.devRef .tc main_v48_1)) (W (Proc.devRef .tc main_arg1)) (W (Proc.devRef .tc main_arg2)) := by
  dsimp only [hostOps1]; after_results_simp; rfl

set_option maxHeartbeats 8000000 in
theorem ops1_v124 :
    (StableHlo.after hostOps1 W (Proc.devRef .tc main_v124) : (⟨S50000x128, .f32⟩ : BufTy).Contents (Elt Ideal))
      = segMean (W (Proc.devRef .tc main_v48_0)) (W (Proc.devRef .tc main_arg3)) (W (Proc.devRef .tc main_arg4)) := by
  dsimp only [hostOps1]; after_results_simp; rfl

theorem ops1_v48_0 :
    StableHlo.after hostOps1 W (Proc.devRef .tc main_v48_0) = W (Proc.devRef .tc main_v48_0) := by
  dsimp only [hostOps1]; after_results

theorem ops1_v48_1 :
    StableHlo.after hostOps1 W (Proc.devRef .tc main_v48_1) = W (Proc.devRef .tc main_v48_1) := by
  dsimp only [hostOps1]; after_results

theorem ops1_v126 :
    (StableHlo.after hostOps1 W (Proc.devRef .tc main_v126) : (⟨S128x256, .bf16⟩ : BufTy).Contents (Elt Ideal))
      = (truncf .bf16 (extractStridedSlice S128x256 ![0, 0] (W (Proc.devRef .tc main_arg9)) slices_S384x256_S128x256_0_0) bitsLt_bf16_f32 : FVec Ideal S128x256 .bf16) := by
  dsimp only [hostOps1]; after_results

theorem ops1_v128 :
    (StableHlo.after hostOps1 W (Proc.devRef .tc main_v128) : (⟨S128x256, .bf16⟩ : BufTy).Contents (Elt Ideal))
      = (truncf .bf16 (extractStridedSlice S128x256 ![128, 0] (W (Proc.devRef .tc main_arg9)) slices_S384x256_S128x256_128_0) bitsLt_bf16_f32 : FVec Ideal S128x256 .bf16) := by
  dsimp only [hostOps1]; after_results

theorem ops1_v130 :
    (StableHlo.after hostOps1 W (Proc.devRef .tc main_v130) : (⟨S128x256, .bf16⟩ : BufTy).Contents (Elt Ideal))
      = (truncf .bf16 (extractStridedSlice S128x256 ![256, 0] (W (Proc.devRef .tc main_arg9)) slices_S384x256_S128x256_256_0) bitsLt_bf16_f32 : FVec Ideal S128x256 .bf16) := by
  dsimp only [hostOps1]; after_results

theorem ops1_v132 :
    (StableHlo.after hostOps1 W (Proc.devRef .tc main_v132) : (⟨S128x256, .bf16⟩ : BufTy).Contents (Elt Ideal))
      = (truncf .bf16 (extractStridedSlice S128x256 ![0, 0] (W (Proc.devRef .tc main_arg11)) slices_S384x256_S128x256_0_0) bitsLt_bf16_f32 : FVec Ideal S128x256 .bf16) := by
  dsimp only [hostOps1]; after_results

theorem ops1_v134 :
    (StableHlo.after hostOps1 W (Proc.devRef .tc main_v134) : (⟨S128x256, .bf16⟩ : BufTy).Contents (Elt Ideal))
      = (truncf .bf16 (extractStridedSlice S128x256 ![128, 0] (W (Proc.devRef .tc main_arg11)) slices_S384x256_S128x256_128_0) bitsLt_bf16_f32 : FVec Ideal S128x256 .bf16) := by
  dsimp only [hostOps1]; after_results

theorem ops1_v136 :
    (StableHlo.after hostOps1 W (Proc.devRef .tc main_v136) : (⟨S128x256, .bf16⟩ : BufTy).Contents (Elt Ideal))
      = (truncf .bf16 (extractStridedSlice S128x256 ![256, 0] (W (Proc.devRef .tc main_arg11)) slices_S384x256_S128x256_256_0) bitsLt_bf16_f32 : FVec Ideal S128x256 .bf16) := by
  dsimp only [hostOps1]; after_results

theorem ops1_v138 :
    (StableHlo.after hostOps1 W (Proc.devRef .tc main_v138) : (⟨S256x128, .bf16⟩ : BufTy).Contents (Elt Ideal))
      = (truncf .bf16 (extractStridedSlice S256x128 ![0, 0] (W (Proc.devRef .tc main_arg13)) slices_S512x128_S256x128_0_0) bitsLt_bf16_f32 : FVec Ideal S256x128 .bf16) := by
  dsimp only [hostOps1]; after_results

theorem ops1_v140 :
    (StableHlo.after hostOps1 W (Proc.devRef .tc main_v140) : (⟨S256x128, .bf16⟩ : BufTy).Contents (Elt Ideal))
      = (truncf .bf16 (extractStridedSlice S256x128 ![256, 0] (W (Proc.devRef .tc main_arg13)) slices_S512x128_S256x128_256_0) bitsLt_bf16_f32 : FVec Ideal S256x128 .bf16) := by
  dsimp only [hostOps1]; after_results

theorem ops1_v141 :
    (StableHlo.after hostOps1 W (Proc.devRef .tc main_v141) : (⟨S1x256, .f32⟩ : BufTy).Contents (Elt Ideal))
      = shapeCast S1x256 (W (Proc.devRef .tc main_arg10)) shapeCasts_S256_S1x256 := by
  dsimp only [hostOps1]; after_results; rfl

theorem ops1_v142 :
    (StableHlo.after hostOps1 W (Proc.devRef .tc main_v142) : (⟨S1x256, .f32⟩ : BufTy).Contents (Elt Ideal))
      = shapeCast S1x256 (W (Proc.devRef .tc main_arg12)) shapeCasts_S256_S1x256 := by
  dsimp only [hostOps1]; after_results; rfl

theorem ops1_v143 :
    (StableHlo.after hostOps1 W (Proc.devRef .tc main_v143) : (⟨S1x128, .f32⟩ : BufTy).Contents (Elt Ideal))
      = shapeCast S1x128 (W (Proc.devRef .tc main_arg14)) shapeCasts_S128_S1x128 := by
  dsimp only [hostOps1]; after_results; rfl

/-! ## The arguments at the boundaries: as launched at the start and after the first body -/

theorem ops0_arg1 :
    StableHlo.after hostOps0 W (Proc.devRef .tc main_arg1) = W (Proc.devRef .tc main_arg1) := by
  dsimp only [hostOps0]; after_results

theorem ops0_arg2 :
    StableHlo.after hostOps0 W (Proc.devRef .tc main_arg2) = W (Proc.devRef .tc main_arg2) := by
  dsimp only [hostOps0]; after_results

theorem ops0_arg3 :
    StableHlo.after hostOps0 W (Proc.devRef .tc main_arg3) = W (Proc.devRef .tc main_arg3) := by
  dsimp only [hostOps0]; after_results

theorem ops0_arg4 :
    StableHlo.after hostOps0 W (Proc.devRef .tc main_arg4) = W (Proc.devRef .tc main_arg4) := by
  dsimp only [hostOps0]; after_results

theorem ops0_arg9 :
    StableHlo.after hostOps0 W (Proc.devRef .tc main_arg9) = W (Proc.devRef .tc main_arg9) := by
  dsimp only [hostOps0]; after_results

theorem ops0_arg10 :
    StableHlo.after hostOps0 W (Proc.devRef .tc main_arg10) = W (Proc.devRef .tc main_arg10) := by
  dsimp only [hostOps0]; after_results

theorem ops0_arg11 :
    StableHlo.after hostOps0 W (Proc.devRef .tc main_arg11) = W (Proc.devRef .tc main_arg11) := by
  dsimp only [hostOps0]; after_results

theorem ops0_arg12 :
    StableHlo.after hostOps0 W (Proc.devRef .tc main_arg12) = W (Proc.devRef .tc main_arg12) := by
  dsimp only [hostOps0]; after_results

theorem ops0_arg13 :
    StableHlo.after hostOps0 W (Proc.devRef .tc main_arg13) = W (Proc.devRef .tc main_arg13) := by
  dsimp only [hostOps0]; after_results

theorem ops0_arg14 :
    StableHlo.after hostOps0 W (Proc.devRef .tc main_arg14) = W (Proc.devRef .tc main_arg14) := by
  dsimp only [hostOps0]; after_results

section Boundaries

variable (m : (ℓ : Loc nD τ sig) → Buf (Elt Ideal) ℓ) (ρ : Dev nD → PrngReg)

theorem W0_arg0 (c : Dev nD) : W0 m ρ c (Proc.devRef .tc main_arg0) = m ((c : Thread nD τ).loc main_arg0) := rfl

theorem W0_arg1 (c : Dev nD) : W0 m ρ c (Proc.devRef .tc main_arg1) = m ((c : Thread nD τ).loc main_arg1) := rfl

theorem W0_arg2 (c : Dev nD) : W0 m ρ c (Proc.devRef .tc main_arg2) = m ((c : Thread nD τ).loc main_arg2) := rfl

theorem W0_arg3 (c : Dev nD) : W0 m ρ c (Proc.devRef .tc main_arg3) = m ((c : Thread nD τ).loc main_arg3) := rfl

theorem W0_arg4 (c : Dev nD) : W0 m ρ c (Proc.devRef .tc main_arg4) = m ((c : Thread nD τ).loc main_arg4) := rfl

theorem W0_arg5 (c : Dev nD) : W0 m ρ c (Proc.devRef .tc main_arg5) = m ((c : Thread nD τ).loc main_arg5) := rfl

theorem W0_arg6 (c : Dev nD) : W0 m ρ c (Proc.devRef .tc main_arg6) = m ((c : Thread nD τ).loc main_arg6) := rfl

theorem W0_arg7 (c : Dev nD) : W0 m ρ c (Proc.devRef .tc main_arg7) = m ((c : Thread nD τ).loc main_arg7) := rfl

theorem W0_arg8 (c : Dev nD) : W0 m ρ c (Proc.devRef .tc main_arg8) = m ((c : Thread nD τ).loc main_arg8) := rfl

theorem W2_arg1 (c : Dev nD) : W2 m ρ c (Proc.devRef .tc main_arg1) = m ((c : Thread nD τ).loc main_arg1) :=
  (W2_of_ne m ρ c main_arg1 (by decide)).trans (ops0_arg1 (W0 m ρ c))

theorem W2_arg2 (c : Dev nD) : W2 m ρ c (Proc.devRef .tc main_arg2) = m ((c : Thread nD τ).loc main_arg2) :=
  (W2_of_ne m ρ c main_arg2 (by decide)).trans (ops0_arg2 (W0 m ρ c))

theorem W2_arg3 (c : Dev nD) : W2 m ρ c (Proc.devRef .tc main_arg3) = m ((c : Thread nD τ).loc main_arg3) :=
  (W2_of_ne m ρ c main_arg3 (by decide)).trans (ops0_arg3 (W0 m ρ c))

theorem W2_arg4 (c : Dev nD) : W2 m ρ c (Proc.devRef .tc main_arg4) = m ((c : Thread nD τ).loc main_arg4) :=
  (W2_of_ne m ρ c main_arg4 (by decide)).trans (ops0_arg4 (W0 m ρ c))

theorem W2_arg9 (c : Dev nD) : W2 m ρ c (Proc.devRef .tc main_arg9) = m ((c : Thread nD τ).loc main_arg9) :=
  (W2_of_ne m ρ c main_arg9 (by decide)).trans (ops0_arg9 (W0 m ρ c))

theorem W2_arg10 (c : Dev nD) : W2 m ρ c (Proc.devRef .tc main_arg10) = m ((c : Thread nD τ).loc main_arg10) :=
  (W2_of_ne m ρ c main_arg10 (by decide)).trans (ops0_arg10 (W0 m ρ c))

theorem W2_arg11 (c : Dev nD) : W2 m ρ c (Proc.devRef .tc main_arg11) = m ((c : Thread nD τ).loc main_arg11) :=
  (W2_of_ne m ρ c main_arg11 (by decide)).trans (ops0_arg11 (W0 m ρ c))

theorem W2_arg12 (c : Dev nD) : W2 m ρ c (Proc.devRef .tc main_arg12) = m ((c : Thread nD τ).loc main_arg12) :=
  (W2_of_ne m ρ c main_arg12 (by decide)).trans (ops0_arg12 (W0 m ρ c))

theorem W2_arg13 (c : Dev nD) : W2 m ρ c (Proc.devRef .tc main_arg13) = m ((c : Thread nD τ).loc main_arg13) :=
  (W2_of_ne m ρ c main_arg13 (by decide)).trans (ops0_arg13 (W0 m ρ c))

theorem W2_arg14 (c : Dev nD) : W2 m ρ c (Proc.devRef .tc main_arg14) = m ((c : Thread nD τ).loc main_arg14) :=
  (W2_of_ne m ρ c main_arg14 (by decide)).trans (ops0_arg14 (W0 m ρ c))

end Boundaries

end Cert.KernelIdeal.HostRead

end
-- ==== Proof.KValue1.lean ====
/-
  The first pallas_call's two outputs as functions of the launch memory.

  The call finds the neighbourhood means of the features over the positive and the negative edges, the features
  themselves, the two row blocks of each first-layer weight matrix narrowed to bf16 (the identity on the ideal
  values) and the biases as one-row matrices; it leaves the two first-layer activations
      hb1 = tanh (mean₊ x · A₁ + x · B₁ + β₁),    hn1 = tanh (mean₋ x · A₁' + x · B₁' + β₁').
-/
import proofs.«111255_j13589276524974_1_alg».proof.Proof.Gen.KernelIdeal.Frame
import proofs.«111255_j13589276524974_1_alg».proof.Proof.KFinal
import proofs.«111255_j13589276524974_1_alg».proof.Proof.KHost

set_option maxRecDepth 16384
set_option pp.maxSteps 5000
set_option pp.deepTerms false

noncomputable section

namespace Cert.KernelIdeal.KValue

open Cert.KernelIdeal Cert.KernelIdeal.Gen Cert.KernelIdeal.HostRead Cert.KernelIdeal.Final Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What the first call finds -/

theorem v1_v18 (c : Dev nD) : V1 m ρ c main_v18 = segMean (m ((c : Thread nD τ).loc main_arg0)) (m ((c : Thread nD τ).loc main_arg1)) (m ((c : Thread nD τ).loc main_arg2)) := ops0_v18 (W0 m ρ c)
theorem v1_v37 (c : Dev nD) : V1 m ρ c main_v37 = segMean (m ((c : Thread nD τ).loc main_arg0)) (m ((c : Thread nD τ).loc main_arg3)) (m ((c : Thread nD τ).loc main_arg4)) := ops0_v37 (W0 m ρ c)
theorem v1_arg0 (c : Dev nD) : V1 m ρ c main_arg0 = (m ((c : Thread nD τ).loc main_arg0)) := ops0_arg0 (W0 m ρ c)
theorem v1_v39 (c : Dev nD) : V1 m ρ c main_v39 = (truncf .bf16 (extractStridedSlice S128x128 ![0, 0] (m ((c : Thread nD τ).loc main_arg5)) slices_S256x128_S128x128_0_0) bitsLt_bf16_f32 : FVec Ideal S128x128 .bf16) := ops0_v39 (W0 m ρ c)
theorem v1_v41 (c : Dev nD) : V1 m ρ c main_v41 = (truncf .bf16 (extractStridedSlice S128x128 ![128, 0] (m ((c : Thread nD τ).loc main_arg5)) slices_S256x128_S128x128_128_0) bitsLt_bf16_f32 : FVec Ideal S128x128 .bf16) := ops0_v41 (W0 m ρ c)
theorem v1_v43 (c : Dev nD) : V1 m ρ c main_v43 = (truncf .bf16 (extractStridedSlice S128x128 ![0, 0] (m ((c : Thread nD τ).loc main_arg7)) slices_S256x128_S128x128_0_0) bitsLt_bf16_f32 : FVec Ideal S128x128 .bf16) := ops0_v43 (W0 m ρ c)
theorem v1_v45 (c : Dev nD) : V1 m ρ c main_v45 = (truncf .bf16 (extractStridedSlice S128x128 ![128, 0] (m ((c : Thread nD τ).loc main_arg7)) slices_S256x128_S128x128_128_0) bitsLt_bf16_f32 : FVec Ideal S128x128 .bf16) := ops0_v45 (W0 m ρ c)
theorem v1_v46 (c : Dev nD) : V1 m ρ c main_v46 = shapeCast S1x128 (m ((c : Thread nD τ).loc main_arg6)) shapeCasts_S128_S1x128 := ops0_v46 (W0 m ρ c)
theorem v1_v47 (c : Dev nD) : V1 m ρ c main_v47 = shapeCast S1x128 (m ((c : Thread nD τ).loc main_arg8)) shapeCasts_S128_S1x128 := ops0_v47 (W0 m ρ c)

/-! ## What it leaves -/

/-- The balanced first-layer activations. -/
def hb1 (c : Dev nD) : S50000x128.Idx → EReal :=
  mix2A (segMean (m ((c : Thread nD τ).loc main_arg0)) (m ((c : Thread nD τ).loc main_arg1)) (m ((c : Thread nD τ).loc main_arg2))) (m ((c : Thread nD τ).loc main_arg0))
    (truncf .bf16 (extractStridedSlice S128x128 ![0, 0] (m ((c : Thread nD τ).loc main_arg5)) slices_S256x128_S128x128_0_0) bitsLt_bf16_f32 : FVec Ideal S128x128 .bf16)
    (truncf .bf16 (extractStridedSlice S128x128 ![128, 0] (m ((c : Thread nD τ).loc main_arg5)) slices_S256x128_S128x128_128_0) bitsLt_bf16_f32 : FVec Ideal S128x128 .bf16)
    (fun q => shapeCast S1x128 (m ((c : Thread nD τ).loc main_arg6)) shapeCasts_S128_S1x128 (ix2 (0 : Fin 1) q))

/-- The unbalanced first-layer activations. -/
def hn1 (c : Dev nD) : S50000x128.Idx → EReal :=
  mix2A (segMean (m ((c : Thread nD τ).loc main_arg0)) (m ((c : Thread nD τ).loc main_arg3)) (m ((c : Thread nD τ).loc main_arg4))) (m ((c : Thread nD τ).loc main_arg0))
    (truncf .bf16 (extractStridedSlice S128x128 ![0, 0] (m ((c : Thread nD τ).loc main_arg7)) slices_S256x128_S128x128_0_0) bitsLt_bf16_f32 : FVec Ideal S128x128 .bf16)
    (truncf .bf16 (extractStridedSlice S128x128 ![128, 0] (m ((c : Thread nD τ).loc main_arg7)) slices_S256x128_S128x128_128_0) bitsLt_bf16_f32 : FVec Ideal S128x128 .bf16)
    (fun q => shapeCast S1x128 (m ((c : Thread nD τ).loc main_arg8)) shapeCasts_S128_S1x128 (ix2 (0 : Fin 1) q))

theorem w2_hb1 (c : Dev nD) : W2 m ρ c (Proc.devRef .tc main_v48_0) = hb1 m c := by
  refine (W2_arr m ρ c 9).trans ((final9 (V1 m ρ) c).trans ?_)
  unfold G9 hb1
  rw [v1_v18 m ρ c, v1_arg0 m ρ c, v1_v39 m ρ c, v1_v41 m ρ c, v1_v46 m ρ c]

theorem w2_hn1 (c : Dev nD) : W2 m ρ c (Proc.devRef .tc main_v48_1) = hn1 m c := by
  refine (W2_arr m ρ c 10).trans ((final10 (V1 m ρ) c).trans ?_)
  unfold G10 hn1
  rw [v1_v37 m ρ c, v1_arg0 m ρ c, v1_v43 m ρ c, v1_v45 m ρ c, v1_v47 m ρ c]

end Cert.KernelIdeal.KValue

end
-- ==== Proof.KValue2.lean ====
/-
  The kernel's result as one function of the launch memory.

  Between the two pallas_calls the host takes the four second-layer neighbourhood means of the first call's outputs
  (the balanced activations over the positive edges and the unbalanced over the negative, and the other way round),
  cuts and narrows the second-layer and final weight matrices into row blocks, and reshapes the biases; the
  arguments are as launched, since nothing so far writes one. The second call then leaves, in the result buffer,
      tanh (hb2 · A₄ + hn2 · B₄ + β₄),   hb2 = tanh (mean₊ hb1 · A₂ + mean₋ hn1 · B₂ + hb1 · D₂ + β₂),
                                         hn2 = tanh (mean₊ hn1 · A₂' + mean₋ hb1 · B₂' + hn1 · D₂' + β₂'),
  and that buffer is the program's result.
-/
import proofs.«111255_j13589276524974_1_alg».proof.Proof.KValue1

set_option maxRecDepth 16384
set_option pp.maxSteps 5000
set_option pp.deepTerms false

noncomputable section

namespace Cert.KernelIdeal.KValue

open Cert.KernelIdeal Cert.KernelIdeal.Gen Cert.KernelIdeal.HostRead Cert.KernelIdeal.Final Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What the second call finds -/

theorem v3_v67 (c : Dev nD) : V3 m ρ c main_v67 = segMean (hb1 m c) (m ((c : Thread nD τ).loc main_arg1)) (m ((c : Thread nD τ).loc main_arg2)) := by
  refine (ops1_v67 (W2 m ρ c)).trans ?_
  rw [w2_hb1 m ρ c, W2_arg1 m ρ c, W2_arg2 m ρ c]
theorem v3_v86 (c : Dev nD) : V3 m ρ c main_v86 = segMean (hn1 m c) (m ((c : Thread nD τ).loc main_arg3)) (m ((c : Thread nD τ).loc main_arg4)) := by
  refine (ops1_v86 (W2 m ρ c)).trans ?_
  rw [w2_hn1 m ρ c, W2_arg3 m ρ c, W2_arg4 m ρ c]
theorem v3_v105 (c : Dev nD) : V3 m ρ c main_v105 = segMean (hn1 m c) (m ((c : Thread nD τ).loc main_arg1)) (m ((c : Thread nD τ).loc main_arg2)) := by
  refine (ops1_v105 (W2 m ρ c)).trans ?_
  rw [w2_hn1 m ρ c, W2_arg1 m ρ c, W2_arg2 m ρ c]
theorem v3_v124 (c : Dev nD) : V3 m ρ c main_v124 = segMean (hb1 m c) (m ((c : Thread nD τ).loc main_arg3)) (m ((c : Thread nD τ).loc main_arg4)) := by
  refine (ops1_v124 (W2 m ρ c)).trans ?_
  rw [w2_hb1 m ρ c, W2_arg3 m ρ c, W2_arg4 m ρ c]
theorem v3_v48_0 (c : Dev nD) : V3 m ρ c main_v48_0 = hb1 m c := (ops1_v48_0 (W2 m ρ c)).trans (w2_hb1 m ρ c)
theorem v3_v48_1 (c : Dev nD) : V3 m ρ c main_v48_1 = hn1 m c := (ops1_v48_1 (W2 m ρ c)).trans (w2_hn1 m ρ c)
theorem v3_v126 (c : Dev nD) : V3 m ρ c main_v126 = (truncf .bf16 (extractStridedSlice S128x256 ![0, 0] (m ((c : Thread nD τ).loc main_arg9)) slices_S384x256_S128x256_0_0) bitsLt_bf16_f32 : FVec Ideal S128x256 .bf16) := by
  refine (ops1_v126 (W2 m ρ c)).trans ?_
  rw [W2_arg9 m ρ c]
theorem v3_v128 (c : Dev nD) : V3 m ρ c main_v128 = (truncf .bf16 (extractStridedSlice S128x256 ![128, 0] (m ((c : Thread nD τ).loc main_arg9)) slices_S384x256_S128x256_128_0) bitsLt_bf16_f32 : FVec Ideal S128x256 .bf16) := by
  refine (ops1_v128 (W2 m ρ c)).trans ?_
  rw [W2_arg9 m ρ c]
theorem v3_v130 (c : Dev nD) : V3 m ρ c main_v130 = (truncf .bf16 (extractStridedSlice S128x256 ![256, 0] (m ((c : Thread nD τ).loc main_arg9)) slices_S384x256_S128x256_256_0) bitsLt_bf16_f32 : FVec Ideal S128x256 .bf16) := by
  refine (ops1_v130 (W2 m ρ c)).trans ?_
  rw [W2_arg9 m ρ c]
theorem v3_v132 (c : Dev nD) : V3 m ρ c main_v132 = (truncf .bf16 (extractStridedSlice S128x256 ![0, 0] (m ((c : Thread nD τ).loc main_arg11)) slices_S384x256_S128x256_0_0) bitsLt_bf16_f32 : FVec Ideal S128x256 .bf16) := by
  refine (ops1_v132 (W2 m ρ c)).trans ?_
  rw [W2_arg11 m ρ c]
theorem v3_v134 (c : Dev nD) : V3 m ρ c main_v134 = (truncf .bf16 (extractStridedSlice S128x256 ![128, 0] (m ((c : Thread nD τ).loc main_arg11)) slices_S384x256_S128x256_128_0) bitsLt_bf16_f32 : FVec Ideal S128x256 .bf16) := by
  refine (ops1_v134 (W2 m ρ c)).trans ?_
  rw [W2_arg11 m ρ c]
theorem v3_v136 (c : Dev nD) : V3 m ρ c main_v136 = (truncf .bf16 (extractStridedSlice S128x256 ![256, 0] (m ((c : Thread nD τ).loc main_arg11)) slices_S384x256_S128x256_256_0) bitsLt_bf16_f32 : FVec Ideal S128x256 .bf16) := by
  refine (ops1_v136 (W2 m ρ c)).trans ?_
  rw [W2_arg11 m ρ c]
theorem v3_v138 (c : Dev nD) : V3 m ρ c main_v138 = (truncf .bf16 (extractStridedSlice S256x128 ![0, 0] (m ((c : Thread nD τ).loc main_arg13)) slices_S512x128_S256x128_0_0) bitsLt_bf16_f32 : FVec Ideal S256x128 .bf16) := by
  refine (ops1_v138 (W2 m ρ c)).trans ?_
  rw [W2_arg13 m ρ c]
theorem v3_v140 (c : Dev nD) : V3 m ρ c main_v140 = (truncf .bf16 (extractStridedSlice S256x128 ![256, 0] (m ((c : Thread nD τ).loc main_arg13)) slices_S512x128_S256x128_256_0) bitsLt_bf16_f32 : FVec Ideal S256x128 .bf16) := by
  refine (ops1_v140 (W2 m ρ c)).trans ?_
  rw [W2_arg13 m ρ c]
theorem v3_v141 (c : Dev nD) : V3 m ρ c main_v141 = shapeCast S1x256 (m ((c : Thread nD τ).loc main_arg10)) shapeCasts_S256_S1x256 := by
  refine (ops1_v141 (W2 m ρ c)).trans ?_
  rw [W2_arg10 m ρ c]
theorem v3_v142 (c : Dev nD) : V3 m ρ c main_v142 = shapeCast S1x256 (m ((c : Thread nD τ).loc main_arg12)) shapeCasts_S256_S1x256 := by
  refine (ops1_v142 (W2 m ρ c)).trans ?_
  rw [W2_arg12 m ρ c]
theorem v3_v143 (c : Dev nD) : V3 m ρ c main_v143 = shapeCast S1x128 (m ((c : Thread nD τ).loc main_arg14)) shapeCasts_S128_S1x128 := by
  refine (ops1_v143 (W2 m ρ c)).trans ?_
  rw [W2_arg14 m ρ c]

/-! ## What it leaves -/

/-- The kernel's result array, as a function of the launch memory. -/
def out (c : Dev nD) : S50000x128.Idx → EReal :=
  mix2A
    (mix3A (segMean (hb1 m c) (m ((c : Thread nD τ).loc main_arg1)) (m ((c : Thread nD τ).loc main_arg2))) (segMean (hn1 m c) (m ((c : Thread nD τ).loc main_arg3)) (m ((c : Thread nD τ).loc main_arg4))) (hb1 m c)
      (truncf .bf16 (extractStridedSlice S128x256 ![0, 0] (m ((c : Thread nD τ).loc main_arg9)) slices_S384x256_S128x256_0_0) bitsLt_bf16_f32 : FVec Ideal S128x256 .bf16)
      (truncf .bf16 (extractStridedSlice S128x256 ![128, 0] (m ((c : Thread nD τ).loc main_arg9)) slices_S384x256_S128x256_128_0) bitsLt_bf16_f32 : FVec Ideal S128x256 .bf16)
      (truncf .bf16 (extractStridedSlice S128x256 ![256, 0] (m ((c : Thread nD τ).loc main_arg9)) slices_S384x256_S128x256_256_0) bitsLt_bf16_f32 : FVec Ideal S128x256 .bf16)
      (fun q => shapeCast S1x256 (m ((c : Thread nD τ).loc main_arg10)) shapeCasts_S256_S1x256 (ix2 (0 : Fin 1) q)))
    (mix3A (segMean (hn1 m c) (m ((c : Thread nD τ).loc main_arg1)) (m ((c : Thread nD τ).loc main_arg2))) (segMean (hb1 m c) (m ((c : Thread nD τ).loc main_arg3)) (m ((c : Thread nD τ).loc main_arg4))) (hn1 m c)
      (truncf .bf16 (extractStridedSlice S128x256 ![0, 0] (m ((c : Thread nD τ).loc main_arg11)) slices_S384x256_S128x256_0_0) bitsLt_bf16_f32 : FVec Ideal S128x256 .bf16)
      (truncf .bf16 (extractStridedSlice S128x256 ![128, 0] (m ((c : Thread nD τ).loc main_arg11)) slices_S384x256_S128x256_128_0) bitsLt_bf16_f32 : FVec Ideal S128x256 .bf16)
      (truncf .bf16 (extractStridedSlice S128x256 ![256, 0] (m ((c : Thread nD τ).loc main_arg11)) slices_S384x256_S128x256_256_0) bitsLt_bf16_f32 : FVec Ideal S128x256 .bf16)
      (fun q => shapeCast S1x256 (m ((c : Thread nD τ).loc main_arg12)) shapeCasts_S256_S1x256 (ix2 (0 : Fin 1) q)))
    (truncf .bf16 (extractStridedSlice S256x128 ![0, 0] (m ((c : Thread nD τ).loc main_arg13)) slices_S512x128_S256x128_0_0) bitsLt_bf16_f32 : FVec Ideal S256x128 .bf16)
    (truncf .bf16 (extractStridedSlice S256x128 ![256, 0] (m ((c : Thread nD τ).loc main_arg13)) slices_S512x128_S256x128_256_0) bitsLt_bf16_f32 : FVec Ideal S256x128 .bf16)
    (fun q => shapeCast S1x128 (m ((c : Thread nD τ).loc main_arg14)) shapeCasts_S128_S1x128 (ix2 (0 : Fin 1) q))

/-- The result buffer's contents at the last boundary are `out`. -/
theorem value (c : Dev nD) : W4 m ρ c (Proc.devRef .tc main_v144) = out m c := by
  refine (W4_arr m ρ c 17).trans ((final17 (V3 m ρ) c).trans ?_)
  unfold G17 HB2 HN2 out
  rw [v3_v67 m ρ c, v3_v86 m ρ c, v3_v48_0 m ρ c, v3_v105 m ρ c, v3_v124 m ρ c, v3_v48_1 m ρ c,
    v3_v126 m ρ c, v3_v128 m ρ c, v3_v130 m ρ c, v3_v141 m ρ c, v3_v132 m ρ c, v3_v134 m ρ c, v3_v136 m ρ c, v3_v142 m ρ c,
    v3_v138 m ρ c, v3_v140 m ρ c, v3_v143 m ρ c]

end Cert.KernelIdeal.KValue

end
-- ==== Proof.LibBroadcastReads.lean ====
/-
  `broadcast_in_dim` of the small shapes a bias, a per-row scale and a per-edge scale go through, read at an index:
  a scalar to any shape; a list [a] to a column [a, 1]; a column [a, 1] across [a, b]; a list [b] to a row [1, b]; a row
  [1, b] down [a, b].
-/
import Idealize.ShloMosaic.Lib.ValueIdx
import Idealize.ShloMosaic.Lib.Pipeline.Value

noncomputable section

namespace BroadcastReads

open Idealize.ShloMosaic Idealize.ShloMosaic.ValueIdx

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A list as a column: entry `(p, 0)` is entry `p`. -/
theorem col_apply {a : Nat} (dims : Fin 1 → Fin 2) (hd : dims 0 = 0)
    (h : (⟨1, ![a]⟩ : Shape).BroadcastsInDim ⟨2, ![a, 1]⟩ dims) (x : (⟨1, ![a]⟩ : Shape).Idx → α) (p : Fin a) (z : Fin 1) :
    broadcastInDim ⟨2, ![a, 1]⟩ dims h x (ix2 p z) = x (ix1 p) :=
  broadcastInDim_apply dims h x (ix2 p z) (ix1 p) (fun d => by
    match d with
    | ⟨0, _⟩ =>
      show p.val = if a = 1 then 0 else ((ix2 p z) (dims 0)).val
      rw [hd]
      show p.val = if a = 1 then 0 else p.val
      split
      · have := p.isLt; omega
      · rfl)

/-- A column across its rows: entry `(p, q)` is the column's entry `(p, 0)`. -/
theorem colAcross_apply {a b : Nat} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (q : Fin b) :
    broadcastInDim ⟨2, ![a, b]⟩ dims h x (ix2 p q) = x (ix2 p (0 : Fin 1)) :=
  broadcastInDim_apply dims h x (ix2 p q) (ix2 p (0 : Fin 1)) (fun d => by
    match d with
    | ⟨0, _⟩ =>
      show p.val = if a = 1 then 0 else ((ix2 p q) (dims 0)).val
      rw [hd0]
      show p.val = if a = 1 then 0 else p.val
      split
      · have := p.isLt; omega
      · rfl
    | ⟨1, _⟩ =>
      show (0 : Nat) = if (1 : Nat) = 1 then 0 else ((ix2 p q) (dims 1)).val
      rw [if_pos rfl])

/-- A list as a row: entry `(0, q)` is entry `q`. -/
theorem row_apply {b : Nat} (dims : Fin 1 → Fin 2) (hd : dims 0 = 1)
    (h : (⟨1, ![b]⟩ : Shape).BroadcastsInDim ⟨2, ![1, b]⟩ dims) (x : (⟨1, ![b]⟩ : Shape).Idx → α) (z : Fin 1) (q : Fin b) :
    broadcastInDim ⟨2, ![1, b]⟩ dims h x (ix2 z q) = x (ix1 q) :=
  broadcastInDim_apply dims h x (ix2 z q) (ix1 q) (fun d => by
    match d with
    | ⟨0, _⟩ =>
      show q.val = if b = 1 then 0 else ((ix2 z q) (dims 0)).val
      rw [hd]
      show q.val = if b = 1 then 0 else q.val
      split
      · have := q.isLt; omega
      · rfl)

/-- A row down its columns: entry `(p, q)` is the row's entry `(0, q)`. -/
theorem rowDown_apply {a b : Nat} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) :=
  broadcastInDim_apply dims h x (ix2 p q) (ix2 (0 : Fin 1) q) (fun d => by
    match d with
    | ⟨0, _⟩ =>
      show (0 : Nat) = if (1 : Nat) = 1 then 0 else ((ix2 p q) (dims 0)).val
      rw [if_pos rfl]
    | ⟨1, _⟩ =>
      show q.val = if b = 1 then 0 else ((ix2 p q) (dims 1)).val
      rw [hd1]
      show q.val = if b = 1 then 0 else q.val
      split
      · have := q.isLt; omega
      · rfl)

end BroadcastReads

end
-- ==== Proof.RefLayers.lean ====
/-
  The reference's dense layers read at one entry.

  Each layer is tanh (X · W + β) with the rows of X a concatenation of two or three column pieces. Entry (r, c) of the
  product is the plain sum over the contracted axis; that sum splits at the seams of the concatenation into one sum per
  piece, each piece meeting the unit-stride block of rows of W that lies under it; the bias, a list made a row and the
  row repeated down the columns, reads its entry c. Only associativity of addition is used, so nothing asks the
  entries to be finite.
-/
import proofs.«111255_j13589276524974_1_alg».proof.ReferenceIdeal
import proofs.«111255_j13589276524974_1_alg».proof.Proof.Spec
import proofs.«111255_j13589276524974_1_alg».proof.Proof.LibDotRead
import proofs.«111255_j13589276524974_1_alg».proof.Proof.LibBroadcastReads
import Idealize.ShloMosaic.Lib.ValueIdx
import Idealize.ShloMosaic.Lib.Pipeline.Value
import Idealize.ShloMosaic.PureOps.Ideal.Laws
noncomputable section
namespace Cert.ReferenceIdeal.Layers
open Cert.ReferenceIdeal Idealize.ShloMosaic Idealize.ShloMosaic.ValueIdx Cert.Spec
variable [Cert.ReferenceIdeal.Facts]
open Cert.ReferenceIdeal.Facts₀ Cert.ReferenceIdeal.Facts   -- the fact names bcast_..., concatenates_... are fields

/-- Entry `(r, c)` of a host `dot_general` with plain dimension numbers is the plain sum over the contracted axis. -/
theorem hostDot_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (F := Ideal) (DotDims.plain M K N) prec sched lhs rhs (ix2 r c)
      = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact DotRead.plain_lhs_row M K N _ _
      | ⟨1, _⟩ => exact (DotRead.plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (DotRead.plain_rhs_row M K N _ _).trans hk
      | ⟨1, _⟩ => exact DotRead.plain_rhs_col M K N _ _)
  rw [el, er]

/-- A list reshaped to a row, read at `(0, q)`, is the list at `q`. -/
theorem shapeCast_row_apply {α : Type} {b : Nat} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  rw [Shape.rowMajor_val_one, Shape.rowMajor_val_two]
  show q.val = z.val * b + q.val
  have := z.isLt
  have hz : z.val = 0 := by omega
  rw [hz, Nat.zero_mul, Nat.zero_add]

/-! ## Two pieces side by side, and a block of rows, read at an entry -/

/-- Two pieces side by side read, left of the seam, the first piece. -/
theorem concat2_apply_left {α : Type} {R m n : Nat} (a : (⟨2, ![R, m]⟩ : Shape).Idx → α) (b : (⟨2, ![R, n]⟩ : Shape).Idx → α)
    (hc : Shape.Concatenates [(⟨2, ![R, m]⟩ : Shape), ⟨2, ![R, n]⟩] ⟨2, ![R, m + n]⟩ 1) (r : Fin R) (k : Fin m) :
    concatenate ⟨2, ![R, m + n]⟩ 1 [⟨⟨2, ![R, m]⟩, a⟩, ⟨⟨2, ![R, n]⟩, b⟩] hc (ix2 r (Fin.castAdd n k)) = a (ix2 r k) :=
  concatenate_pair_apply_left 1 a b hc (ix2 r (Fin.castAdd n k)) rfl (ix2 r k) (fun d => by
    match d with
    | ⟨0, _⟩ => rfl
    | ⟨1, _⟩ => rfl)

/-- Two pieces side by side read, from the seam on, the second piece. -/
theorem concat2_apply_right {α : Type} {R m n : Nat} (a : (⟨2, ![R, m]⟩ : Shape).Idx → α) (b : (⟨2, ![R, n]⟩ : Shape).Idx → α)
    (hc : Shape.Concatenates [(⟨2, ![R, m]⟩ : Shape), ⟨2, ![R, n]⟩] ⟨2, ![R, m + n]⟩ 1) (r : Fin R) (k : Fin n) :
    concatenate ⟨2, ![R, m + n]⟩ 1 [⟨⟨2, ![R, m]⟩, a⟩, ⟨⟨2, ![R, n]⟩, b⟩] hc (ix2 r (Fin.natAdd m k)) = b (ix2 r k) :=
  concatenate_pair_apply_right 1 a b hc (ix2 r (Fin.natAdd m k)) rfl rfl (ix2 r k)
    (fun d hd => by
      match d with
      | ⟨0, _⟩ => rfl
      | ⟨1, _⟩ => exact absurd (Fin.ext rfl) hd)
    (by show k.val + m = m + k.val; omega)

/-- The block of `n` rows of a matrix from row `o` on, read at `(k, c)`, is the matrix at `(o + k, c)`. -/
theorem rowBlock_apply {α : Type} {K p n : Nat} (o : Nat) (W : (⟨2, ![K, p]⟩ : Shape).Idx → α)
    (hs : (⟨2, ![K, p]⟩ : Shape).Slices ![o, 0] ⟨2, ![n, p]⟩) (k : Fin n) (c : Fin p) (k' : Fin K) (hk : k'.val = o + k.val) :
    extractStridedSlice ⟨2, ![n, p]⟩ ![o, 0] W hs (ix2 k c) = W (ix2 k' c) :=
  extractStridedSlice_apply ![o, 0] W hs (ix2 k c) (ix2 k' c) (fun d => by
    match d with
    | ⟨0, _⟩ => exact hk
    | ⟨1, _⟩ => show c.val = 0 + c.val; omega)

/-- A list made a row and the row repeated down the columns reads, at `(r, c)`, the list at `c`. -/
theorem bias_apply {α : Type} {R p : Nat} (hb1 : (⟨1, ![p]⟩ : Shape).BroadcastsInDim ⟨2, ![1, p]⟩ ![1])
    (hb2 : (⟨2, ![1, p]⟩ : Shape).BroadcastsInDim ⟨2, ![R, p]⟩ ![0, 1]) (β : (⟨1, ![p]⟩ : Shape).Idx → α) (r : Fin R) (c : Fin p) :
    broadcastInDim ⟨2, ![R, p]⟩ ![0, 1] hb2 (broadcastInDim ⟨2, ![1, p]⟩ ![1] hb1 β) (ix2 r c) = β (ix1 c) :=
  (BroadcastReads.rowDown_apply ![0, 1] rfl rfl hb2 _ r c).trans (BroadcastReads.row_apply ![1] rfl hb1 β 0 c)

/-! ## The layers over variable extents -/

/-- A layer of two pieces: entry `(r, c)` of `tanh ([a | b] · W + β)`. -/
theorem dense2 {R m n K p : Nat} (hK : m + n = K)
    (D : DotDims ⟨2, ![R, K]⟩ ⟨2, ![K, p]⟩ ⟨2, ![R, p]⟩) (hD : D = DotDims.plain R K p)
    (hc : Shape.Concatenates [(⟨2, ![R, m]⟩ : Shape), ⟨2, ![R, n]⟩] ⟨2, ![R, K]⟩ 1)
    (hb1 : (⟨1, ![p]⟩ : Shape).BroadcastsInDim ⟨2, ![1, p]⟩ ![1])
    (hb2 : (⟨2, ![1, p]⟩ : Shape).BroadcastsInDim ⟨2, ![R, p]⟩ ![0, 1])
    (a : FVec Ideal ⟨2, ![R, m]⟩ .f32) (b : FVec Ideal ⟨2, ![R, n]⟩ .f32) (W : FVec Ideal ⟨2, ![K, p]⟩ .f32)
    (β : FVec Ideal ⟨1, ![p]⟩ .f32)
    (hs0 : (⟨2, ![K, p]⟩ : Shape).Slices ![0, 0] ⟨2, ![m, p]⟩) (hs1 : (⟨2, ![K, p]⟩ : Shape).Slices ![m, 0] ⟨2, ![n, p]⟩)
    (r : Fin R) (c : Fin p) :
    Host.tanh (F := Ideal) (addf (Host.dotGeneral D none
        (concatenate ⟨2, ![R, K]⟩ 1 [⟨⟨2, ![R, m]⟩, a⟩, ⟨⟨2, ![R, n]⟩, b⟩] hc) W)
      (broadcastInDim ⟨2, ![R, p]⟩ ![0, 1] hb2 (broadcastInDim ⟨2, ![1, p]⟩ ![1] hb1 β))) (ix2 r c)
    = mix2 a b (extractStridedSlice ⟨2, ![m, p]⟩ ![0, 0] W hs0) (extractStridedSlice ⟨2, ![n, p]⟩ ![m, 0] W hs1)
        (fun q => β (ix1 q)) r c := by
  subst hD
  subst hK
  show Ideal.tanh (FloatOps.dotGeneral (F := Ideal) (DotDims.plain R (m + n) p) none .single _ W (ix2 r c) + _) = _
  rw [hostDot_plain_apply, Fin.sum_univ_add]
  refine congrArg Ideal.tanh (congrArg₂ (· + ·) (congrArg₂ (· + ·)
    (Finset.sum_congr rfl fun k _ => ?_) (Finset.sum_congr rfl fun k _ => ?_)) ?_)
  · exact congrArg₂ (· * ·) (concat2_apply_left a b hc r k)
      (rowBlock_apply 0 W hs0 k c (Fin.castAdd n k) (by show k.val = 0 + k.val; omega)).symm
  · exact congrArg₂ (· * ·) (concat2_apply_right a b hc r k)
      (rowBlock_apply m W hs1 k c (Fin.natAdd m k) rfl).symm
  · exact bias_apply hb1 hb2 β r c

/-- A layer of three pieces, the first two put side by side first: entry `(r, c)` of `tanh ([[a | b] | d] · W + β)`. -/
theorem dense3 {R m n o K₁ K p : Nat} (hK₁ : m + n = K₁) (hK : K₁ + o = K)
    (D : DotDims ⟨2, ![R, K]⟩ ⟨2, ![K, p]⟩ ⟨2, ![R, p]⟩) (hD : D = DotDims.plain R K p)
    (hc₁ : Shape.Concatenates [(⟨2, ![R, m]⟩ : Shape), ⟨2, ![R, n]⟩] ⟨2, ![R, K₁]⟩ 1)
    (hc : Shape.Concatenates [(⟨2, ![R, K₁]⟩ : Shape), ⟨2, ![R, o]⟩] ⟨2, ![R, K]⟩ 1)
    (hb1 : (⟨1, ![p]⟩ : Shape).BroadcastsInDim ⟨2, ![1, p]⟩ ![1])
    (hb2 : (⟨2, ![1, p]⟩ : Shape).BroadcastsInDim ⟨2, ![R, p]⟩ ![0, 1])
    (a : FVec Ideal ⟨2, ![R, m]⟩ .f32) (b : FVec Ideal ⟨2, ![R, n]⟩ .f32) (d : FVec Ideal ⟨2, ![R, o]⟩ .f32)
    (W : FVec Ideal ⟨2, ![K, p]⟩ .f32) (β : FVec Ideal ⟨1, ![p]⟩ .f32)
    (hs0 : (⟨2, ![K, p]⟩ : Shape).Slices ![0, 0] ⟨2, ![m, p]⟩) (hs1 : (⟨2, ![K, p]⟩ : Shape).Slices ![m, 0] ⟨2, ![n, p]⟩)
    (hs2 : (⟨2, ![K, p]⟩ : Shape).Slices ![K₁, 0] ⟨2, ![o, p]⟩)
    (r : Fin R) (c : Fin p) :
    Host.tanh (F := Ideal) (addf (Host.dotGeneral D none
        (concatenate ⟨2, ![R, K]⟩ 1 [⟨⟨2, ![R, K₁]⟩, concatenate ⟨2, ![R, K₁]⟩ 1 [⟨⟨2, ![R, m]⟩, a⟩, ⟨⟨2, ![R, n]⟩, b⟩] hc₁⟩,
          ⟨⟨2, ![R, o]⟩, d⟩] hc) W)
      (broadcastInDim ⟨2, ![R, p]⟩ ![0, 1] hb2 (broadcastInDim ⟨2, ![1, p]⟩ ![1] hb1 β))) (ix2 r c)
    = mix3 a b d (extractStridedSlice ⟨2, ![m, p]⟩ ![0, 0] W hs0) (extractStridedSlice ⟨2, ![n, p]⟩ ![m, 0] W hs1)
        (extractStridedSlice ⟨2, ![o, p]⟩ ![K₁, 0] W hs2) (fun q => β (ix1 q)) r c := by
  subst hD
  subst hK
  subst hK₁
  show Ideal.tanh (FloatOps.dotGeneral (F := Ideal) (DotDims.plain R (m + n + o) p) none .single _ W (ix2 r c) + _) = _
  rw [hostDot_plain_apply, Fin.sum_univ_add, Fin.sum_univ_add]
  refine congrArg Ideal.tanh (congrArg₂ (· + ·) (congrArg₂ (· + ·) (congrArg₂ (· + ·)
    (Finset.sum_congr rfl fun k _ => ?_) (Finset.sum_congr rfl fun k _ => ?_)) (Finset.sum_congr rfl fun k _ => ?_)) ?_)
  · exact congrArg₂ (· * ·)
      ((concat2_apply_left _ d hc r (Fin.castAdd n k)).trans (concat2_apply_left a b hc₁ r k))
      (rowBlock_apply 0 W hs0 k c (Fin.castAdd o (Fin.castAdd n k)) (by show k.val = 0 + k.val; omega)).symm
  · exact congrArg₂ (· * ·)
      ((concat2_apply_left _ d hc r (Fin.natAdd m k)).trans (concat2_apply_right a b hc₁ r k))
      (rowBlock_apply m W hs1 k c (Fin.castAdd o (Fin.natAdd m k)) rfl).symm
  · exact congrArg₂ (· * ·) (concat2_apply_right _ d hc r k)
      (rowBlock_apply (m + n) W hs2 k c (Fin.natAdd (m + n) k) rfl).symm
  · exact bias_apply hb1 hb2 β r c

/-! ## The reference's three layers -/

/-- 1. The 256 → 128 layer of two 128-wide pieces. -/
theorem layer_128_128 (a b : FVec Ideal S50000x128 .f32) (W : FVec Ideal S256x128 .f32) (β : FVec Ideal S128 .f32)
    (hs0 : S256x128.Slices ![0, 0] ⟨2, ![128, 128]⟩) (hs1 : S256x128.Slices ![128, 0] ⟨2, ![128, 128]⟩) (r : Fin 50000) (c : Fin 128) :
    Host.tanh (F := Ideal) (addf (Host.dotGeneral dot_S50000x256_S256x128_S50000x128_1_0_0_1_n_n none
        (concatenate S50000x256 1 [⟨S50000x128, a⟩, ⟨S50000x128, b⟩] concatenates_S50000x128_S50000x128_S50000x256_d1) W)
      (broadcastInDim S50000x128 ![0, 1] bcast_S1x128_S50000x128_0_1 (broadcastInDim S1x128 ![1] bcast_S128_S1x128_1 β))) (ix2 r c)
    = mix2 a b (extractStridedSlice ⟨2, ![128, 128]⟩ ![0, 0] W hs0) (extractStridedSlice ⟨2, ![128, 128]⟩ ![128, 0] W hs1) (fun q => β (ix1 q)) r c :=
  dense2 (R := 50000) (m := 128) (n := 128) (K := 256) (p := 128) rfl
    dot_S50000x256_S256x128_S50000x128_1_0_0_1_n_n rfl concatenates_S50000x128_S50000x128_S50000x256_d1
    bcast_S128_S1x128_1 bcast_S1x128_S50000x128_0_1 a b W β hs0 hs1 r c

/-- 2. The 384 → 256 layer of three 128-wide pieces, the first two concatenated first. -/
theorem layer_128_128_128 (a b d : FVec Ideal S50000x128 .f32) (W : FVec Ideal S384x256 .f32) (β : FVec Ideal S256 .f32)
    (hs0 : S384x256.Slices ![0, 0] ⟨2, ![128, 256]⟩) (hs1 : S384x256.Slices ![128, 0] ⟨2, ![128, 256]⟩) (hs2 : S384x256.Slices ![256, 0] ⟨2, ![128, 256]⟩) (r : Fin 50000) (c : Fin 256) :
    Host.tanh (F := Ideal) (addf (Host.dotGeneral dot_S50000x384_S384x256_S50000x256_1_0_0_1_n_n none
        (concatenate S50000x384 1 [⟨S50000x256, concatenate S50000x256 1 [⟨S50000x128, a⟩, ⟨S50000x128, b⟩] concatenates_S50000x128_S50000x128_S50000x256_d1⟩, ⟨S50000x128, d⟩] concatenates_S50000x256_S50000x128_S50000x384_d1) W)
      (broadcastInDim S50000x256 ![0, 1] bcast_S1x256_S50000x256_0_1 (broadcastInDim S1x256 ![1] bcast_S256_S1x256_1 β))) (ix2 r c)
    = mix3 a b d (extractStridedSlice ⟨2, ![128, 256]⟩ ![0, 0] W hs0) (extractStridedSlice ⟨2, ![128, 256]⟩ ![128, 0] W hs1) (extractStridedSlice ⟨2, ![128, 256]⟩ ![256, 0] W hs2) (fun q => β (ix1 q)) r c :=
  dense3 (R := 50000) (m := 128) (n := 128) (o := 128) (K₁ := 256) (K := 384) (p := 256) rfl rfl
    dot_S50000x384_S384x256_S50000x256_1_0_0_1_n_n rfl concatenates_S50000x128_S50000x128_S50000x256_d1
    concatenates_S50000x256_S50000x128_S50000x384_d1 bcast_S256_S1x256_1 bcast_S1x256_S50000x256_0_1 a b d W β hs0 hs1 hs2 r c

/-- 3. The 512 → 128 layer of two 256-wide pieces. -/
theorem layer_256_256 (a b : FVec Ideal S50000x256 .f32) (W : FVec Ideal S512x128 .f32) (β : FVec Ideal S128 .f32)
    (hs0 : S512x128.Slices ![0, 0] ⟨2, ![256, 128]⟩) (hs1 : S512x128.Slices ![256, 0] ⟨2, ![256, 128]⟩) (r : Fin 50000) (c : Fin 128) :
    Host.tanh (F := Ideal) (addf (Host.dotGeneral dot_S50000x512_S512x128_S50000x128_1_0_0_1_n_n none
        (concatenate S50000x512 1 [⟨S50000x256, a⟩, ⟨S50000x256, b⟩] concatenates_S50000x256_S50000x256_S50000x512_d1) W)
      (broadcastInDim S50000x128 ![0, 1] bcast_S1x128_S50000x128_0_1 (broadcastInDim S1x128 ![1] bcast_S128_S1x128_1 β))) (ix2 r c)
    = mix2 a b (extractStridedSlice ⟨2, ![256, 128]⟩ ![0, 0] W hs0) (extractStridedSlice ⟨2, ![256, 128]⟩ ![256, 0] W hs1) (fun q => β (ix1 q)) r c :=
  dense2 (R := 50000) (m := 256) (n := 256) (K := 512) (p := 128) rfl
    dot_S50000x512_S512x128_S50000x128_1_0_0_1_n_n rfl concatenates_S50000x256_S50000x256_S50000x512_d1
    bcast_S128_S1x128_1 bcast_S1x128_S50000x128_0_1 a b W β hs0 hs1 r c

end Cert.ReferenceIdeal.Layers

end
-- ==== Proof.Net.lean ====
/-
  The whole two-layer network as one function of its arguments, over the dense layers of `Spec`.

  `seg feat src dst` stands for the neighbourhood mean (gather the rows `src`, add them into the rows `dst`, divide by
  the clamped in-degree): both programs compute it by the same host operations, so it stays a parameter here.
  With `x` the node features and the two edge lists `(ps, pd)`, `(ns, nd)`:

      hb1 = tanh ([seg x ps pd | x] · W₁ + β₁)            hn1 = tanh ([seg x ns nd | x] · W₁' + β₁')
      hb2 = tanh ([seg hb1 ps pd | seg hn1 ns nd | hb1] · W₂ + β₂)
      hn2 = tanh ([seg hn1 ps pd | seg hb1 ns nd | hn1] · W₂' + β₂')
      out = tanh ([hb2 | hn2] · W₄ + β₄)

  each weight matrix given by its row blocks (`A`, `B`, `D`), one per column piece of the input.
-/
import proofs.«111255_j13589276524974_1_alg».proof.Proof.Spec

noncomputable section

namespace Cert.Spec

open Idealize.ShloMosaic Idealize.ShloMosaic.ValueIdx

/-- The network's result array, entry by entry. -/
def net {ι : Type} {N : Nat}
    (seg : ((⟨2, ![N, 128]⟩ : Shape).Idx → EReal) → ι → ι → ((⟨2, ![N, 128]⟩ : Shape).Idx → EReal))
    (x : (⟨2, ![N, 128]⟩ : Shape).Idx → EReal) (ps pd ns nd : ι)
    (A1 B1 : (⟨2, ![128, 128]⟩ : Shape).Idx → EReal) (β1 : Fin 128 → EReal)
    (A1' B1' : (⟨2, ![128, 128]⟩ : Shape).Idx → EReal) (β1' : Fin 128 → EReal)
    (A2 B2 D2 : (⟨2, ![128, 256]⟩ : Shape).Idx → EReal) (β2 : Fin 256 → EReal)
    (A2' B2' D2' : (⟨2, ![128, 256]⟩ : Shape).Idx → EReal) (β2' : Fin 256 → EReal)
    (A4 B4 : (⟨2, ![256, 128]⟩ : Shape).Idx → EReal) (β4 : Fin 128 → EReal) :
    (⟨2, ![N, 128]⟩ : Shape).Idx → EReal :=
  mix2A
    (mix3A (seg (mix2A (seg x ps pd) x A1 B1 β1) ps pd) (seg (mix2A (seg x ns nd) x A1' B1' β1') ns nd)
      (mix2A (seg x ps pd) x A1 B1 β1) A2 B2 D2 β2)
    (mix3A (seg (mix2A (seg x ns nd) x A1' B1' β1') ps pd) (seg (mix2A (seg x ps pd) x A1 B1 β1) ns nd)
      (mix2A (seg x ns nd) x A1' B1' β1') A2' B2' D2' β2')
    A4 B4 β4

end Cert.Spec

end
-- ==== Proof.RefNet.lean ====
/-
  The reference's result array is the network of `Net` over the dense layers of `Spec`.

  The neighbourhood mean is the same chain of host operations wherever the reference computes it, so it is named once
  (`segMean`) and the network is read over it: the two first layers are two-piece layers over the mean of the node
  features, the two second layers three-piece layers over the means of the first layers' results, and the last layer a
  two-piece layer over the second layers' results. Each layer is read entry by entry by the lemmas of `RefLayers`.
-/
import proofs.«111255_j13589276524974_1_alg».proof.Proof.Gen.ReferenceIdeal.Run
import proofs.«111255_j13589276524974_1_alg».proof.Proof.RefLayers
import proofs.«111255_j13589276524974_1_alg».proof.Proof.SpecCongr
import proofs.«111255_j13589276524974_1_alg».proof.Proof.Net
noncomputable section
namespace Cert.ReferenceIdeal.RefNet
open Cert.ReferenceIdeal Cert.ReferenceIdeal.Gen Cert.ReferenceIdeal.Value Cert.ReferenceIdeal.Layers Cert.Spec
open Idealize.ShloMosaic Idealize.ShloMosaic.ValueIdx Idealize.ShloMosaic.TcCoe Idealize.SL.Sem Idealize.ShloMosaic.StableHlo

/-- The neighbourhood mean of the rows of `feat` over the edges `src → dst`: the rows `src` (a negative index counted
    from the end) gathered, added into the rows `dst`, and divided by the number of edges into the row, at least one. -/
def segMean (feat : FVec Ideal S50000x128 .f32) (src dst : (⟨S800000, .i32⟩ : BufTy).Contents (Elt Ideal)) : FVec Ideal S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 feat (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

set_option maxRecDepth 8192 in
/-- The first layer over the first edge list, as a whole array. -/
theorem v43_eq (V0 : Valuation τ sig (Elt Ideal))
    (h1a : S256x128.Slices ![0, 0] ⟨2, ![128, 128]⟩) (h1b : S256x128.Slices ![128, 0] ⟨2, ![128, 128]⟩) :
    res_main_v43 V0 = mix2A (segMean (V0 (Proc.devRef .tc main_arg0)) (V0 (Proc.devRef .tc main_arg1)) (V0 (Proc.devRef .tc main_arg2))) (V0 (Proc.devRef .tc main_arg0))
      (extractStridedSlice ⟨2, ![128, 128]⟩ ![0, 0] (V0 (Proc.devRef .tc main_arg5)) h1a) (extractStridedSlice ⟨2, ![128, 128]⟩ ![128, 0] (V0 (Proc.devRef .tc main_arg5)) h1b)
      (fun q => (V0 (Proc.devRef .tc main_arg6)) (ix1 q)) := by
  funext i
  obtain ⟨r, c, rfl⟩ : ∃ (r : Fin 50000) (c : Fin 128), i = ix2 r c := ⟨i 0, i 1, eq_ix2 i⟩
  rw [mix2A_apply]
  exact layer_128_128 (segMean (V0 (Proc.devRef .tc main_arg0)) (V0 (Proc.devRef .tc main_arg1)) (V0 (Proc.devRef .tc main_arg2))) (V0 (Proc.devRef .tc main_arg0)) (V0 (Proc.devRef .tc main_arg5)) (V0 (Proc.devRef .tc main_arg6)) h1a h1b r c
set_option maxRecDepth 8192 in
/-- The first layer over the second edge list, as a whole array. -/
theorem v49_eq (V0 : Valuation τ sig (Elt Ideal))
    (h1a : S256x128.Slices ![0, 0] ⟨2, ![128, 128]⟩) (h1b : S256x128.Slices ![128, 0] ⟨2, ![128, 128]⟩) :
    res_main_v49 V0 = mix2A (segMean (V0 (Proc.devRef .tc main_arg0)) (V0 (Proc.devRef .tc main_arg3)) (V0 (Proc.devRef .tc main_arg4))) (V0 (Proc.devRef .tc main_arg0))
      (extractStridedSlice ⟨2, ![128, 128]⟩ ![0, 0] (V0 (Proc.devRef .tc main_arg7)) h1a) (extractStridedSlice ⟨2, ![128, 128]⟩ ![128, 0] (V0 (Proc.devRef .tc main_arg7)) h1b)
      (fun q => (V0 (Proc.devRef .tc main_arg8)) (ix1 q)) := by
  funext i
  obtain ⟨r, c, rfl⟩ : ∃ (r : Fin 50000) (c : Fin 128), i = ix2 r c := ⟨i 0, i 1, eq_ix2 i⟩
  rw [mix2A_apply]
  exact layer_128_128 (segMean (V0 (Proc.devRef .tc main_arg0)) (V0 (Proc.devRef .tc main_arg3)) (V0 (Proc.devRef .tc main_arg4))) (V0 (Proc.devRef .tc main_arg0)) (V0 (Proc.devRef .tc main_arg7)) (V0 (Proc.devRef .tc main_arg8)) h1a h1b r c

/-- A second layer, of three 128-wide pieces, as a whole array. -/
theorem layer3A (a b d : FVec Ideal S50000x128 .f32) (W : FVec Ideal S384x256 .f32) (β : FVec Ideal S256 .f32)
    (h2a : S384x256.Slices ![0, 0] ⟨2, ![128, 256]⟩) (h2b : S384x256.Slices ![128, 0] ⟨2, ![128, 256]⟩)
    (h2c : S384x256.Slices ![256, 0] ⟨2, ![128, 256]⟩) :
    Host.tanh (F := Ideal) (addf (Host.dotGeneral dot_S50000x384_S384x256_S50000x256_1_0_0_1_n_n none
        (concatenate S50000x384 1 [⟨S50000x256, concatenate S50000x256 1 [⟨S50000x128, a⟩, ⟨S50000x128, b⟩] concatenates_S50000x128_S50000x128_S50000x256_d1⟩, ⟨S50000x128, d⟩] concatenates_S50000x256_S50000x128_S50000x384_d1) W)
      (broadcastInDim S50000x256 ![0, 1] bcast_S1x256_S50000x256_0_1 (broadcastInDim S1x256 ![1] bcast_S256_S1x256_1 β)))
    = mix3A a b d (extractStridedSlice ⟨2, ![128, 256]⟩ ![0, 0] W h2a) (extractStridedSlice ⟨2, ![128, 256]⟩ ![128, 0] W h2b)
        (extractStridedSlice ⟨2, ![128, 256]⟩ ![256, 0] W h2c) (fun q => β (ix1 q)) := by
  funext i
  obtain ⟨r, c, rfl⟩ : ∃ (r : Fin 50000) (c : Fin 256), i = ix2 r c := ⟨i 0, i 1, eq_ix2 i⟩
  rw [mix3A_apply]
  exact layer_128_128_128 a b d W β h2a h2b h2c r c

/-- The last layer, of two 256-wide pieces, as a whole array. -/
theorem layer4A (a b : FVec Ideal S50000x256 .f32) (W : FVec Ideal S512x128 .f32) (β : FVec Ideal S128 .f32)
    (h4a : S512x128.Slices ![0, 0] ⟨2, ![256, 128]⟩) (h4b : S512x128.Slices ![256, 0] ⟨2, ![256, 128]⟩) :
    Host.tanh (F := Ideal) (addf (Host.dotGeneral dot_S50000x512_S512x128_S50000x128_1_0_0_1_n_n none
        (concatenate S50000x512 1 [⟨S50000x256, a⟩, ⟨S50000x256, b⟩] concatenates_S50000x256_S50000x256_S50000x512_d1) W)
      (broadcastInDim S50000x128 ![0, 1] bcast_S1x128_S50000x128_0_1 (broadcastInDim S1x128 ![1] bcast_S128_S1x128_1 β)))
    = mix2A a b (extractStridedSlice ⟨2, ![256, 128]⟩ ![0, 0] W h4a) (extractStridedSlice ⟨2, ![256, 128]⟩ ![256, 0] W h4b)
        (fun q => β (ix1 q)) := by
  funext i
  obtain ⟨r, c, rfl⟩ : ∃ (r : Fin 50000) (c : Fin 128), i = ix2 r c := ⟨i 0, i 1, eq_ix2 i⟩
  rw [mix2A_apply]
  exact layer_256_256 a b W β h4a h4b r c

set_option maxRecDepth 8192 in
/-- The reference's result array is the network over the neighbourhood mean. -/
theorem result_eq_net (V0 : Valuation τ sig (Elt Ideal))
    (h1a : S256x128.Slices ![0, 0] ⟨2, ![128, 128]⟩) (h1b : S256x128.Slices ![128, 0] ⟨2, ![128, 128]⟩)
    (h2a : S384x256.Slices ![0, 0] ⟨2, ![128, 256]⟩) (h2b : S384x256.Slices ![128, 0] ⟨2, ![128, 256]⟩) (h2c : S384x256.Slices ![256, 0] ⟨2, ![128, 256]⟩)
    (h4a : S512x128.Slices ![0, 0] ⟨2, ![256, 128]⟩) (h4b : S512x128.Slices ![256, 0] ⟨2, ![256, 128]⟩) :
    Host.tanh (F := Ideal) (addf (Host.dotGeneral (φ₁ := .f32) (φ₂ := .f32) dot_S50000x512_S512x128_S50000x128_1_0_0_1_n_n none (res_main_v140 V0) (V0 (Proc.devRef .tc main_arg13))) (broadcastInDim S50000x128 ![0, 1] bcast_S1x128_S50000x128_0_1 (broadcastInDim S1x128 ![1] bcast_S128_S1x128_1 (V0 (Proc.devRef .tc main_arg14)))))
    = net segMean (V0 (Proc.devRef .tc main_arg0)) (V0 (Proc.devRef .tc main_arg1)) (V0 (Proc.devRef .tc main_arg2)) (V0 (Proc.devRef .tc main_arg3)) (V0 (Proc.devRef .tc main_arg4))
        (extractStridedSlice ⟨2, ![128, 128]⟩ ![0, 0] (V0 (Proc.devRef .tc main_arg5)) h1a) (extractStridedSlice ⟨2, ![128, 128]⟩ ![128, 0] (V0 (Proc.devRef .tc main_arg5)) h1b) (fun q => V0 (Proc.devRef .tc main_arg6) (ix1 q))
        (extractStridedSlice ⟨2, ![128, 128]⟩ ![0, 0] (V0 (Proc.devRef .tc main_arg7)) h1a) (extractStridedSlice ⟨2, ![128, 128]⟩ ![128, 0] (V0 (Proc.devRef .tc main_arg7)) h1b) (fun q => V0 (Proc.devRef .tc main_arg8) (ix1 q))
        (extractStridedSlice ⟨2, ![128, 256]⟩ ![0, 0] (V0 (Proc.devRef .tc main_arg9)) h2a) (extractStridedSlice ⟨2, ![128, 256]⟩ ![128, 0] (V0 (Proc.devRef .tc main_arg9)) h2b) (extractStridedSlice ⟨2, ![128, 256]⟩ ![256, 0] (V0 (Proc.devRef .tc main_arg9)) h2c) (fun q => V0 (Proc.devRef .tc main_arg10) (ix1 q))
        (extractStridedSlice ⟨2, ![128, 256]⟩ ![0, 0] (V0 (Proc.devRef .tc main_arg11)) h2a) (extractStridedSlice ⟨2, ![128, 256]⟩ ![128, 0] (V0 (Proc.devRef .tc main_arg11)) h2b) (extractStridedSlice ⟨2, ![128, 256]⟩ ![256, 0] (V0 (Proc.devRef .tc main_arg11)) h2c) (fun q => V0 (Proc.devRef .tc main_arg12) (ix1 q))
        (extractStridedSlice ⟨2, ![256, 128]⟩ ![0, 0] (V0 (Proc.devRef .tc main_arg13)) h4a) (extractStridedSlice ⟨2, ![256, 128]⟩ ![256, 0] (V0 (Proc.devRef .tc main_arg13)) h4b) (fun q => V0 (Proc.devRef .tc main_arg14) (ix1 q)) := by
  unfold res_main_v140
  refine (layer4A _ _ _ _ h4a h4b).trans ?_
  rw [layer3A _ _ _ _ _ h2a h2b h2c, layer3A _ _ _ _ _ h2a h2b h2c, v43_eq V0 h1a h1b, v49_eq V0 h1a h1b]
  rfl

end Cert.ReferenceIdeal.RefNet

end
-- ==== Proof.SegSame.lean ====
/-
  The neighbourhood mean the kernel program's host operations compute and the one the reference program computes are
  one function: both are the same chain of host operations (gather the rows at the sources, add them up at the
  destinations, divide by the clamped count of incoming edges) over the same shapes, and the dimension records of the
  gather and of the two scatters carry the same lists, their well-formedness proofs being proofs of one proposition.
-/
import proofs.«111255_j13589276524974_1_alg».proof.Proof.KHost
import proofs.«111255_j13589276524974_1_alg».proof.Proof.RefNet
noncomputable section
namespace Cert.SegSame
open Idealize.ShloMosaic

/-- The two programs' neighbourhood means are the same function of the features and the two index lists. -/
theorem segMean_eq : Cert.KernelIdeal.HostRead.segMean = Cert.ReferenceIdeal.RefNet.segMean := rfl

end Cert.SegSame

end
-- ==== Proof.Bridge.lean ====
/-
  The two programs' results are one function of the arguments.

  `netAll` is the network of `Net` over the reference's neighbourhood mean, with each weight matrix given by its
  unit-stride row blocks and each bias read entry by entry. The reference's generated run ends at it (`RefNet`).
  The kernel's result (`KValue.out`) is the same network over the kernel program's own neighbourhood mean, the row
  blocks narrowed to bf16 and the biases reshaped to one-row matrices: the narrowing is the identity on the ideal
  values, a list reshaped to a row reads the list, and the two programs' means are one function, their dimension
  records differing in name only. Run from memories that agree on the arguments, both programs therefore end with
  the same array, on every extended real: no finiteness is used.
-/
import proofs.«111255_j13589276524974_1_alg».proof.Defs
import proofs.«111255_j13589276524974_1_alg».proof.Proof.Gen.Pre_finite_inputs
import proofs.«111255_j13589276524974_1_alg».proof.Proof.Gen.ReferenceIdeal.Run
import proofs.«111255_j13589276524974_1_alg».proof.Proof.KRun
import proofs.«111255_j13589276524974_1_alg».proof.Proof.KValue2
import proofs.«111255_j13589276524974_1_alg».proof.Proof.RefNet
import proofs.«111255_j13589276524974_1_alg».proof.Proof.SegSame

set_option maxRecDepth 16384
set_option pp.maxSteps 5000
set_option pp.deepTerms false

noncomputable section

namespace Cert.Bridge

open Idealize.ShloMosaic Idealize.ShloMosaic.TcCoe Idealize.ShloMosaic.ValueIdx Idealize.SL.Sem Idealize.ShloMosaic.StableHlo Cert.Spec

/-- Narrowing to bf16 is the identity on the ideal values. -/
theorem truncf_id {s : Shape} (x : FVec Ideal s .f32) (h : FTy.bf16.bits < FTy.f32.bits) :
    (truncf .bf16 x h : FVec Ideal s .bf16) = x := rfl

/-- A list reshaped to a one-row matrix, read along the row, is the list. -/
theorem row_bias {b : Nat} (x : (⟨1, ![b]⟩ : Shape).Idx → EReal) (h : (⟨1, ![b]⟩ : Shape).ShapeCasts ⟨2, ![1, b]⟩) :
    (fun q : Fin b => shapeCast ⟨2, ![1, b]⟩ x h (ix2 (0 : Fin 1) q)) = fun q => x (ix1 q) :=
  funext fun q => Cert.ReferenceIdeal.Layers.shapeCast_row_apply x h 0 q

/-- The network as a function of the fifteen argument arrays. -/
def netAll (x0 : FVec Ideal Cert.ReferenceIdeal.S50000x128 .f32) (x1 x2 x3 x4 : (⟨Cert.ReferenceIdeal.S800000, .i32⟩ : BufTy).Contents (Elt Ideal))
    (x5 : FVec Ideal Cert.ReferenceIdeal.S256x128 .f32) (x6 : FVec Ideal Cert.ReferenceIdeal.S128 .f32) (x7 : FVec Ideal Cert.ReferenceIdeal.S256x128 .f32) (x8 : FVec Ideal Cert.ReferenceIdeal.S128 .f32)
    (x9 : FVec Ideal Cert.ReferenceIdeal.S384x256 .f32) (x10 : FVec Ideal Cert.ReferenceIdeal.S256 .f32) (x11 : FVec Ideal Cert.ReferenceIdeal.S384x256 .f32) (x12 : FVec Ideal Cert.ReferenceIdeal.S256 .f32)
    (x13 : FVec Ideal Cert.ReferenceIdeal.S512x128 .f32) (x14 : FVec Ideal Cert.ReferenceIdeal.S128 .f32) : (⟨2, ![50000, 128]⟩ : Shape).Idx → EReal :=
  net Cert.ReferenceIdeal.RefNet.segMean x0 x1 x2 x3 x4
    (extractStridedSlice ⟨2, ![128, 128]⟩ ![0, 0] x5 Cert.KernelIdeal.Facts₀.slices_S256x128_S128x128_0_0) (extractStridedSlice ⟨2, ![128, 128]⟩ ![128, 0] x5 Cert.KernelIdeal.Facts₀.slices_S256x128_S128x128_128_0) (fun q => x6 (ix1 q))
    (extractStridedSlice ⟨2, ![128, 128]⟩ ![0, 0] x7 Cert.KernelIdeal.Facts₀.slices_S256x128_S128x128_0_0) (extractStridedSlice ⟨2, ![128, 128]⟩ ![128, 0] x7 Cert.KernelIdeal.Facts₀.slices_S256x128_S128x128_128_0) (fun q => x8 (ix1 q))
    (extractStridedSlice ⟨2, ![128, 256]⟩ ![0, 0] x9 Cert.KernelIdeal.Facts₀.slices_S384x256_S128x256_0_0) (extractStridedSlice ⟨2, ![128, 256]⟩ ![128, 0] x9 Cert.KernelIdeal.Facts₀.slices_S384x256_S128x256_128_0) (extractStridedSlice ⟨2, ![128, 256]⟩ ![256, 0] x9 Cert.KernelIdeal.Facts₀.slices_S384x256_S128x256_256_0) (fun q => x10 (ix1 q))
    (extractStridedSlice ⟨2, ![128, 256]⟩ ![0, 0] x11 Cert.KernelIdeal.Facts₀.slices_S384x256_S128x256_0_0) (extractStridedSlice ⟨2, ![128, 256]⟩ ![128, 0] x11 Cert.KernelIdeal.Facts₀.slices_S384x256_S128x256_128_0) (extractStridedSlice ⟨2, ![128, 256]⟩ ![256, 0] x11 Cert.KernelIdeal.Facts₀.slices_S384x256_S128x256_256_0) (fun q => x12 (ix1 q))
    (extractStridedSlice ⟨2, ![256, 128]⟩ ![0, 0] x13 Cert.KernelIdeal.Facts₀.slices_S512x128_S256x128_0_0) (extractStridedSlice ⟨2, ![256, 128]⟩ ![256, 0] x13 Cert.KernelIdeal.Facts₀.slices_S512x128_S256x128_256_0) (fun q => x14 (ix1 q))

/-- The reference's run ends at `netAll` of its launch memory's arguments. -/
theorem ref_value (m' : (ℓ : Loc Cert.ReferenceIdeal.nD Cert.ReferenceIdeal.τ Cert.ReferenceIdeal.sig) → Buf (Elt Ideal) ℓ) (c : Dev Cert.ReferenceIdeal.nD) :
    Host.tanh (F := Ideal) (addf (Host.dotGeneral (φ₁ := .f32) (φ₂ := .f32) Cert.ReferenceIdeal.dot_S50000x512_S512x128_S50000x128_1_0_0_1_n_n none (Cert.ReferenceIdeal.Value.res_main_v140 (launchContents m' c)) ((launchContents m' c) (Proc.devRef .tc Cert.ReferenceIdeal.main_arg13))) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 ((launchContents m' c) (Proc.devRef .tc Cert.ReferenceIdeal.main_arg14)))))
    = netAll (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) :=
  Cert.ReferenceIdeal.RefNet.result_eq_net (launchContents m' c) Cert.KernelIdeal.Facts₀.slices_S256x128_S128x128_0_0 Cert.KernelIdeal.Facts₀.slices_S256x128_S128x128_128_0
    Cert.KernelIdeal.Facts₀.slices_S384x256_S128x256_0_0 Cert.KernelIdeal.Facts₀.slices_S384x256_S128x256_128_0 Cert.KernelIdeal.Facts₀.slices_S384x256_S128x256_256_0
    Cert.KernelIdeal.Facts₀.slices_S512x128_S256x128_0_0 Cert.KernelIdeal.Facts₀.slices_S512x128_S256x128_256_0

/-- The kernel's result is `netAll` of its launch memory's arguments. -/
theorem k_value (m : (ℓ : Loc Cert.KernelIdeal.nD Cert.KernelIdeal.τ Cert.KernelIdeal.sig) → Buf (Elt Ideal) ℓ) (c : Dev Cert.KernelIdeal.nD) :
    Cert.KernelIdeal.KValue.out m c = netAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  unfold Cert.KernelIdeal.KValue.out Cert.KernelIdeal.KValue.hb1 Cert.KernelIdeal.KValue.hn1 netAll net
  simp only [truncf_id, row_bias, Cert.SegSame.segMean_eq]

/-- Run from memories that agree on the arguments, the idealized kernel and the idealized reference both end, with
    equal result arrays and unchanged arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.KValue.out m c, ?_, ?_⟩
  · exact (θ_run Cert.KernelIdeal.defs _ _).mono (fun r h c => ⟨(h c).1.trans (Cert.KernelIdeal.KValue.value m ρ c), (h c).2⟩)
      (Cert.KernelIdeal.Named.run (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11, e12, e13, e14⟩ := hagree c
    refine (ref_value m' c).trans ?_
    rw [e0, e1, e2, e3, e4, e5, e6, e7, e8, e9, e10, e11, e12, e13, e14]
    exact (k_value m c).symm

end Cert.Bridge

end
-- ==== Proof.lean ====
/-
  The certificate of a two-layer signed graph network: a Pallas kernel against its jnp reference, as extended reals.

  Both programs compute, for node features `x` and two edge lists,
      hb1 = tanh ([mean₊ x | x]·W₁ + β₁),  hn1 = tanh ([mean₋ x | x]·W₁' + β₁'),
      hb2 = tanh ([mean₊ hb1 | mean₋ hn1 | hb1]·W₂ + β₂),  hn2 = tanh ([mean₊ hn1 | mean₋ hb1 | hn1]·W₂' + β₂'),
      out = tanh ([hb2 | hn2]·W₄ + β₄),
  where mean± is the neighbourhood mean over the positive or negative edges, computed by the same host operations
  in both. The reference concatenates the pieces and multiplies by the whole weight matrix; the kernel never
  concatenates: in two pallas_calls over blocks of 1000 rows it multiplies each piece by the matching row block of
  the matrix (cast to bf16, the identity on the ideal values) and adds the products. A sum over the concatenated
  axis is the sum of the sums over the pieces by associativity and commutativity of addition alone, so the two
  results agree on all extended reals and the finiteness of the inputs is never used.

  The modules: `Spec`, `Net` (the layers and the network as functions), `Payloads` (a body's arithmetic at an entry),
  `KReads`, `KFinal` (blocks to arrays), `KHost`, `KValue1`, `KValue2` (the kernel's result as a function of the launch
  memory, over the run `KRun`), `RefLayers`, `RefNet` (the reference's), `SegSame` and `Bridge` (the two are one).
  The frames of the kernel and of its idealization are the generated ones; the reference's frame is its generated run
  with the result dropped; the idealization rewrote nothing, so `preserves` is trivial.
-/
import proofs.«111255_j13589276524974_1_alg».proof.Defs
import proofs.«111255_j13589276524974_1_alg».proof.Proof.Gen.Kernel
import proofs.«111255_j13589276524974_1_alg».proof.Proof.Gen.Kernel.Skeleton
import proofs.«111255_j13589276524974_1_alg».proof.Proof.Gen.Kernel.Launch
import proofs.«111255_j13589276524974_1_alg».proof.Proof.Gen.Kernel.Points
import proofs.«111255_j13589276524974_1_alg».proof.Proof.Gen.Kernel.Frame
import proofs.«111255_j13589276524974_1_alg».proof.Proof.Gen.KernelIdeal
import proofs.«111255_j13589276524974_1_alg».proof.Proof.Gen.KernelIdeal.Skeleton
import proofs.«111255_j13589276524974_1_alg».proof.Proof.Gen.KernelIdeal.Launch
import proofs.«111255_j13589276524974_1_alg».proof.Proof.Gen.KernelIdeal.Points
import proofs.«111255_j13589276524974_1_alg».proof.Proof.Gen.KernelIdeal.Frame
import proofs.«111255_j13589276524974_1_alg».proof.Proof.Gen.ReferenceIdeal
import proofs.«111255_j13589276524974_1_alg».proof.Proof.Gen.Pre_finite_inputs
import proofs.«111255_j13589276524974_1_alg».proof.Proof.Gen.ReferenceIdeal.Run
import proofs.«111255_j13589276524974_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
